-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_inv_2000" .f32 0xBA03126F#32 ((-1 / 2000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2000 : Shape := ⟨2, ![16384, 2000]⟩
abbrev S16384x10 : Shape := ⟨2, ![16384, 10]⟩
abbrev S10x2000 : Shape := ⟨2, ![10, 2000]⟩
abbrev S1x2000 : Shape := ⟨2, ![1, 2000]⟩
abbrev S2000x10 : Shape := ⟨2, ![2000, 10]⟩
abbrev S1x10 : Shape := ⟨2, ![1, 10]⟩
abbrev S_ : Shape := ⟨0, ![]⟩

class Facts : Prop where
  bcast_S_S16384x2000 : S_.BroadcastsInDim S16384x2000 (![] : Fin 0 → Fin S16384x2000.rank)
  reducesTo_S16384x2000_S_d0_1 : S16384x2000.ReducesTo [0, 1] S_
  h_S_ : 0 < S_.numel
  bcast_S_S16384x10 : S_.BroadcastsInDim S16384x10 (![] : Fin 0 → Fin S16384x10.rank)
  reducesTo_S16384x10_S_d0_1 : S16384x10.ReducesTo [0, 1] S_
  bcast_S_S10x2000 : S_.BroadcastsInDim S10x2000 (![] : Fin 0 → Fin S10x2000.rank)
  reducesTo_S10x2000_S_d0_1 : S10x2000.ReducesTo [0, 1] S_
  bcast_S_S1x2000 : S_.BroadcastsInDim S1x2000 (![] : Fin 0 → Fin S1x2000.rank)
  reducesTo_S1x2000_S_d0_1 : S1x2000.ReducesTo [0, 1] S_
  bcast_S_S2000x10 : S_.BroadcastsInDim S2000x10 (![] : Fin 0 → Fin S2000x10.rank)
  reducesTo_S2000x10_S_d0_1 : S2000x10.ReducesTo [0, 1] S_
  bcast_S_S1x10 : S_.BroadcastsInDim S1x10 (![] : Fin 0 → Fin S1x10.rank)
  reducesTo_S1x10_S_d0_1 : S1x10.ReducesTo [0, 1] S_

variable [Facts]

def fn_part1 {F : FTy → Type} [FloatOps F] (main_arg4 : FVec F S1x2000 .f32) (main_arg5 : FVec F S2000x10 .f32) (main_arg6 : FVec F S1x10 .f32) (main_v13 : IVec S_ 1) (main_v16 : IVec S10x2000 1) : IVec S_ 1 :=
  let main_c_5 : IVec S_ 1 := constantI S_ 1 1#1
  let main_v17 : IVec S_ 1 := (fun x v => Host.reduce IntOp.andi x v reducesTo_S10x2000_S_d0_1 h_S_) main_v16 main_c_5
  let main_v18 : IVec S_ 1 := andi main_v13 main_v17
  let main_v19 : FVec F S1x2000 .f32 := Host.absf main_arg4
  let main_cst_6 : FVec F S_ .f32 := constant S_ .f32 0x7F800000#32
  let main_v20 : FVec F S1x2000 .f32 := broadcastInDim S1x2000 ![] bcast_S_S1x2000 main_cst_6
  let main_v21 : IVec S1x2000 1 := cmpf .olt main_v19 main_v20
  let main_c_7 : IVec S_ 1 := constantI S_ 1 1#1
  let main_v22 : IVec S_ 1 := (fun x v => Host.reduce IntOp.andi x v reducesTo_S1x2000_S_d0_1 h_S_) main_v21 main_c_7
  let main_v23 : IVec S_ 1 := andi main_v18 main_v22
  let main_v24 : FVec F S2000x10 .f32 := Host.absf main_arg5
  let main_cst_8 : FVec F S_ .f32 := constant S_ .f32 0x7F800000#32
  let main_v25 : FVec F S2000x10 .f32 := broadcastInDim S2000x10 ![] bcast_S_S2000x10 main_cst_8
  let main_v26 : IVec S2000x10 1 := cmpf .olt main_v24 main_v25
  let main_c_9 : IVec S_ 1 := constantI S_ 1 1#1
  let main_v27 : IVec S_ 1 := (fun x v => Host.reduce IntOp.andi x v reducesTo_S2000x10_S_d0_1 h_S_) main_v26 main_c_9
  let main_v28 : IVec S_ 1 := andi main_v23 main_v27
  let main_v29 : FVec F S1x10 .f32 := Host.absf main_arg6
  let main_cst_10 : FVec F S_ .f32 := constant S_ .f32 0x7F800000#32
  let main_v30 : FVec F S1x10 .f32 := broadcastInDim S1x10 ![] bcast_S_S1x10 main_cst_10
  let main_v31 : IVec S1x10 1 := cmpf .olt main_v29 main_v30
  let main_c_11 : IVec S_ 1 := constantI S_ 1 1#1
  let main_v32 : IVec S_ 1 := (fun x v => Host.reduce IntOp.andi x v reducesTo_S1x10_S_d0_1 h_S_) main_v31 main_c_11
  let main_v33 : IVec S_ 1 := andi main_v28 main_v32
  main_v33

def fn {F : FTy → Type} [FloatOps F] (main_arg0 : FVec F S16384x2000 .f32) (main_arg1 : FVec F S16384x2000 .f32) (main_arg2 : FVec F S16384x10 .f32) (main_arg3 : FVec F S10x2000 .f32) (main_arg4 : FVec F S1x2000 .f32) (main_arg5 : FVec F S2000x10 .f32) (main_arg6 : FVec F S1x10 .f32) : IVec S_ 1 :=
  let main_v0 : FVec F S16384x2000 .f32 := Host.absf main_arg0
  let main_cst : FVec F S_ .f32 := constant S_ .f32 0x7F800000#32
  let main_v1 : FVec F S16384x2000 .f32 := broadcastInDim S16384x2000 ![] bcast_S_S16384x2000 main_cst
  let main_v2 : IVec S16384x2000 1 := cmpf .olt main_v0 main_v1
  let main_c : IVec S_ 1 := constantI S_ 1 1#1
  let main_v3 : IVec S_ 1 := (fun x v => Host.reduce IntOp.andi x v reducesTo_S16384x2000_S_d0_1 h_S_) main_v2 main_c
  let main_v4 : FVec F S16384x2000 .f32 := Host.absf main_arg1
  let main_cst_0 : FVec F S_ .f32 := constant S_ .f32 0x7F800000#32
  let main_v5 : FVec F S16384x2000 .f32 := broadcastInDim S16384x2000 ![] bcast_S_S16384x2000 main_cst_0
  let main_v6 : IVec S16384x2000 1 := cmpf .olt main_v4 main_v5
  let main_c_1 : IVec S_ 1 := constantI S_ 1 1#1
  let main_v7 : IVec S_ 1 := (fun x v => Host.reduce IntOp.andi x v reducesTo_S16384x2000_S_d0_1 h_S_) main_v6 main_c_1
  let main_v8 : IVec S_ 1 := andi main_v3 main_v7
  let main_v9 : FVec F S16384x10 .f32 := Host.absf main_arg2
  let main_cst_2 : FVec F S_ .f32 := constant S_ .f32 0x7F800000#32
  let main_v10 : FVec F S16384x10 .f32 := broadcastInDim S16384x10 ![] bcast_S_S16384x10 main_cst_2
  let main_v11 : IVec S16384x10 1 := cmpf .olt main_v9 main_v10
  let main_c_3 : IVec S_ 1 := constantI S_ 1 1#1
  let main_v12 : IVec S_ 1 := (fun x v => Host.reduce IntOp.andi x v reducesTo_S16384x10_S_d0_1 h_S_) main_v11 main_c_3
  let main_v13 : IVec S_ 1 := andi main_v8 main_v12
  let main_v14 : FVec F S10x2000 .f32 := Host.absf main_arg3
  let main_cst_4 : FVec F S_ .f32 := constant S_ .f32 0x7F800000#32
  let main_v15 : FVec F S10x2000 .f32 := broadcastInDim S10x2000 ![] bcast_S_S10x2000 main_cst_4
  let main_v16 : IVec S10x2000 1 := cmpf .olt main_v14 main_v15
  fn_part1 (F := F) main_arg4 main_arg5 main_arg6 main_v13 main_v16
-- ==== Kernel.lean ====
abbrev S16384x2000 : Shape := ⟨2, ![16384, 2000]⟩
abbrev S16384x10 : Shape := ⟨2, ![16384, 10]⟩
abbrev S10x2000 : Shape := ⟨2, ![10, 2000]⟩
abbrev S1x2000 : Shape := ⟨2, ![1, 2000]⟩
abbrev S2000x10 : Shape := ⟨2, ![2000, 10]⟩
abbrev S1x10 : Shape := ⟨2, ![1, 10]⟩
abbrev S10x200x10 : Shape := ⟨3, ![10, 200, 10]⟩
abbrev S_ : Shape := ⟨0, ![]⟩
abbrev S10x200 : Shape := ⟨2, ![10, 200]⟩
abbrev S10x200x1 : Shape := ⟨3, ![10, 200, 1]⟩
abbrev S16384x2 : Shape := ⟨2, ![16384, 2]⟩
abbrev S1024x2000 : Shape := ⟨2, ![1024, 2000]⟩
abbrev S1024x10 : Shape := ⟨2, ![1024, 10]⟩
abbrev S1024x2 : Shape := ⟨2, ![1024, 2]⟩
abbrev S1024 : Shape := ⟨1, ![1024]⟩
abbrev S1024x1 : Shape := ⟨2, ![1024, 1]⟩
abbrev S16384x1 : Shape := ⟨2, ![16384, 1]⟩
abbrev S16384 : Shape := ⟨1, ![16384]⟩

abbrev nBuf : Space → Nat
  | .hbm => 45
  | .vmem => 13
  | .smem => 0
  | _ => 0

abbrev bufTy : (tb : Table) → Fin (tcTables nBuf tb) → BufTy
  | .hbm, ⟨0, _⟩ => ⟨S16384x2000, .f32⟩
  | .hbm, ⟨1, _⟩ => ⟨S16384x2000, .f32⟩
  | .hbm, ⟨2, _⟩ => ⟨S16384x10, .f32⟩
  | .hbm, ⟨3, _⟩ => ⟨S10x2000, .f32⟩
  | .hbm, ⟨4, _⟩ => ⟨S1x2000, .f32⟩
  | .hbm, ⟨5, _⟩ => ⟨S2000x10, .f32⟩
  | .hbm, ⟨6, _⟩ => ⟨S1x10, .f32⟩
  | .hbm, ⟨7, _⟩ => ⟨S10x2000, .f32⟩
  | .hbm, ⟨8, _⟩ => ⟨S10x2000, .f32⟩
  | .hbm, ⟨9, _⟩ => ⟨S10x2000, .f32⟩
  | .hbm, ⟨10, _⟩ => ⟨S10x200x10, .f32⟩
  | .hbm, ⟨11, _⟩ => ⟨S_, .f32⟩
  | .hbm, ⟨12, _⟩ => ⟨S10x200, .f32⟩
  | .hbm, ⟨13, _⟩ => ⟨S10x200x1, .f32⟩
  | .hbm, ⟨14, _⟩ => ⟨S10x200x10, .f32⟩
  | .hbm, ⟨15, _⟩ => ⟨S10x200x10, .f32⟩
  | .hbm, ⟨16, _⟩ => ⟨S10x2000, .f32⟩
  | .hbm, ⟨17, _⟩ => ⟨S_, .f32⟩
  | .hbm, ⟨18, _⟩ => ⟨S10x2000, .f32⟩
  | .hbm, ⟨19, _⟩ => ⟨S10x2000, .f32⟩
  | .hbm, ⟨20, _⟩ => ⟨S10x2000, .f32⟩
  | .hbm, ⟨21, _⟩ => ⟨S2000x10, .f32⟩
  | .hbm, ⟨22, _⟩ => ⟨S16384x10, .f32⟩
  | .hbm, ⟨23, _⟩ => ⟨S16384x2, .f32⟩
  | .hbm, ⟨24, _⟩ => ⟨S16384x1, .f32⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16384x1, .f32⟩
  | .hbm, ⟨31, _⟩ => ⟨S16384, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2000x10, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S1024x2000, .f32⟩
  | .local _ .vmem, ⟨1, _⟩ => ⟨S1024x2000, .f32⟩
  | .local _ .vmem, ⟨2, _⟩ => ⟨S1024x2000, .f32⟩
  | .local _ .vmem, ⟨3, _⟩ => ⟨S1024x2000, .f32⟩
  | .local _ .vmem, ⟨4, _⟩ => ⟨S1024x10, .f32⟩
  | .local _ .vmem, ⟨5, _⟩ => ⟨S1024x10, .f32⟩
  | .local _ .vmem, ⟨6, _⟩ => ⟨S2000x10, .f32⟩
  | .local _ .vmem, ⟨7, _⟩ => ⟨S2000x10, .f32⟩
  | .local _ .vmem, ⟨8, _⟩ => ⟨S1x10, .f32⟩
  | .local _ .vmem, ⟨9, _⟩ => ⟨S1024x10, .f32⟩
  | .local _ .vmem, ⟨10, _⟩ => ⟨S1024x10, .f32⟩
  | .local _ .vmem, ⟨11, _⟩ => ⟨S1024x2, .f32⟩
  | .local _ .vmem, ⟨12, _⟩ => ⟨S1024x2, .f32⟩
  | _, _ => ⟨S16384x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2000x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2000x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S1x2000_S10x2000_0_1 : S1x2000.BroadcastsInDim S10x2000 (![0, 1] : Fin 2 → Fin S10x2000.rank)
  shapeCasts_S10x2000_S10x200x10 : S10x2000.ShapeCasts S10x200x10
  reducesTo_S10x200x10_S10x200_d2 : S10x200x10.ReducesTo [2] S10x200
  h_S_ : 0 < S_.numel
  bcast_S10x200_S10x200x1_0_1 : S10x200.BroadcastsInDim S10x200x1 (![0, 1] : Fin 2 → Fin S10x200x1.rank)
  bcast_S10x200x1_S10x200x10_0_1_2 : S10x200x1.BroadcastsInDim S10x200x10 (![0, 1, 2] : Fin 3 → Fin S10x200x10.rank)
  shapeCasts_S10x200x10_S10x2000 : S10x200x10.ShapeCasts S10x2000
  bcast_S_S10x2000 : S_.BroadcastsInDim S10x2000 (![] : Fin 0 → Fin S10x2000.rank)
  transposes_S10x2000_S2000x10_1_0 : S10x2000.Transposes [1, 0] S2000x10
  inb_S1024x2000_S1024x2000_0_0 : ∀ a, (![0, 0] : Fin 2 → Nat) a + S1024x2000.size a ≤ S1024x2000.size a
  h_S1024x2000 : 0 < S1024x2000.numel
  inb_S2000x10_S2000x10_0_0 : ∀ a, (![0, 0] : Fin 2 → Nat) a + S2000x10.size a ≤ S2000x10.size a
  h_S2000x10 : 0 < S2000x10.numel
  shapeCasts_S2000x10_S2000x10 : S2000x10.ShapeCasts S2000x10
  inb_S1x10_S1x10_0_0 : ∀ a, (![0, 0] : Fin 2 → Nat) a + S1x10.size a ≤ S1x10.size a
  h_S1x10 : 0 < S1x10.numel
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  inb_S1024x10_S1024x10_0_0 : ∀ a, (![0, 0] : Fin 2 → Nat) a + S1024x10.size a ≤ S1024x10.size a
  h_S1024x10 : 0 < S1024x10.numel
  concatenates_S1024x1_S1024x1_S1024x2_d1 : Shape.Concatenates [S1024x1, S1024x1] S1024x2 1
  inb_S1024x2_S1024x2_0_0 : ∀ a, (![0, 0] : Fin 2 → Nat) a + S1024x2.size a ≤ S1024x2.size a
  h_S1024x2 : 0 < S1024x2.numel
  slices_S16384x2_S16384x1_0_0 : S16384x2.Slices ![0, 0] S16384x1
  shapeCasts_S16384x1_S16384 : S16384x1.ShapeCasts S16384
  reducesTo_S16384_S_d0 : S16384.ReducesTo [0] S_
  slices_S16384x2_S16384x1_0_1 : S16384x2.Slices ![0, 1] S16384x1
  reducesTo_S2000x10_S_d0_1 : S2000x10.ReducesTo [0, 1] S_
  dot_S1024x2000_S2000x10_S1024x10_1_0_0_1_n_n_wf : DotDims.WF S1024x2000 S2000x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2000.size a ≤ S16384x2000.size a
  hwx0_0 : ∀ i : grid0.Coords, EltTy.bits .f32 = 32 ∨ (Rect.block (s := S16384x2000) S1024x2000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2000.size a ≤ S16384x2000.size a
  hwx0_1 : ∀ i : grid0.Coords, EltTy.bits .f32 = 32 ∨ (Rect.block (s := S16384x2000) S1024x2000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x10.size a ≤ S16384x10.size a
  hwx0_2 : ∀ i : grid0.Coords, EltTy.bits .f32 = 32 ∨ (Rect.block (s := S16384x10) S1024x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2000x10.size a ≤ S2000x10.size a
  hwx0_3 : ∀ i : grid0.Coords, EltTy.bits .f32 = 32 ∨ (Rect.block (s := S2000x10) S2000x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2000x10.size a ≤ S2000x10.size a
  hwx0_4 : ∀ i : grid0.Coords, EltTy.bits .f32 = 32 ∨ (Rect.block (s := S2000x10) S2000x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x10.size a ≤ S1x10.size a
  hwx0_5 : ∀ i : grid0.Coords, EltTy.bits .f32 = 32 ∨ (Rect.block (s := S1x10) S1x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x10.size a ≤ S16384x10.size a
  hwx0_6 : ∀ i : grid0.Coords, EltTy.bits .f32 = 32 ∨ (Rect.block (s := S16384x10) S1024x10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x2.size a ≤ S16384x2.size a
  hwx0_7 : ∀ i : grid0.Coords, EltTy.bits .f32 = 32 ∨ (Rect.block (s := S16384x2) S1024x2.size (cc0_transform_7 i) (hinb0_7 i)).WholeWords (EltTy.packing .f32)

variable [Facts₀]

def dot_S1024x2000_S2000x10_S1024x10_1_0_0_1_n_n : DotDims S1024x2000 S2000x10 S1024x10 where
  lhsContracting := [1]
  rhsContracting := [0]
  lhsNonContracting := [0]
  rhsNonContracting := [1]
  lhsBatch := []
  rhsBatch := []
  wf := dot_S1024x2000_S2000x10_S1024x10_1_0_0_1_n_n_wf

abbrev win0_0 : Pipeline.Window sig grid0 :=
  Pipeline.Window.ofSpec (Memref.whole main_arg0) S1024x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S2000x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13_0) S1024x10.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13_1) S1024x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x2000 : Shape := ⟨2, ![16384, 2000]⟩
abbrev S16384x10 : Shape := ⟨2, ![16384, 10]⟩
abbrev S10x2000 : Shape := ⟨2, ![10, 2000]⟩
abbrev S1x2000 : Shape := ⟨2, ![1, 2000]⟩
abbrev S2000x10 : Shape := ⟨2, ![2000, 10]⟩
abbrev S1x10 : Shape := ⟨2, ![1, 10]⟩
abbrev S10x200x10 : Shape := ⟨3, ![10, 200, 10]⟩
abbrev S_ : Shape := ⟨0, ![]⟩
abbrev S10x200 : Shape := ⟨2, ![10, 200]⟩
abbrev S10x200x1 : Shape := ⟨3, ![10, 200, 1]⟩
abbrev S16384 : Shape := ⟨1, ![16384]⟩
abbrev S16384x1 : Shape := ⟨2, ![16384, 1]⟩

abbrev nBuf : Space → Nat
  | .hbm => 77
  | .vmem => 0
  | .smem => 0
  | _ => 0

abbrev bufTy : (tb : Table) → Fin (tcTables nBuf tb) → BufTy
  | .hbm, ⟨0, _⟩ => ⟨S16384x2000, .f32⟩
  | .hbm, ⟨1, _⟩ => ⟨S16384x2000, .f32⟩
  | .hbm, ⟨2, _⟩ => ⟨S16384x10, .f32⟩
  | .hbm, ⟨3, _⟩ => ⟨S10x2000, .f32⟩
  | .hbm, ⟨4, _⟩ => ⟨S1x2000, .f32⟩
  | .hbm, ⟨5, _⟩ => ⟨S2000x10, .f32⟩
  | .hbm, ⟨6, _⟩ => ⟨S1x10, .f32⟩
  | .hbm, ⟨7, _⟩ => ⟨S10x2000, .f32⟩
  | .hbm, ⟨8, _⟩ => ⟨S10x2000, .f32⟩
  | .hbm, ⟨9, _⟩ => ⟨S10x2000, .f32⟩
  | .hbm, ⟨10, _⟩ => ⟨S10x200x10, .f32⟩
  | .hbm, ⟨11, _⟩ => ⟨S_, .f32⟩
  | .hbm, ⟨12, _⟩ => ⟨S10x200, .f32⟩
  | .hbm, ⟨13, _⟩ => ⟨S10x200x1, .f32⟩
  | .hbm, ⟨14, _⟩ => ⟨S10x200x10, .f32⟩
  | .hbm, ⟨15, _⟩ => ⟨S10x200x10, .f32⟩
  | .hbm, ⟨16, _⟩ => ⟨S10x2000, .f32⟩
  | .hbm, ⟨17, _⟩ => ⟨S_, .f32⟩
  | .hbm, ⟨18, _⟩ => ⟨S10x2000, .f32⟩
  | .hbm, ⟨19, _⟩ => ⟨S10x2000, .f32⟩
  | .hbm, ⟨20, _⟩ => ⟨S10x2000, .f32⟩
  | .hbm, ⟨21, _⟩ => ⟨S16384x2000, .f32⟩
  | .hbm, ⟨22, _⟩ => ⟨S16384x2000, .f32⟩
  | .hbm, ⟨23, _⟩ => ⟨S2000x10, .f32⟩
  | .hbm, ⟨24, _⟩ => ⟨S16384x10, .f32⟩
  | .hbm, ⟨25, _⟩ => ⟨S_, .f32⟩
  | .hbm, ⟨26, _⟩ => ⟨S16384x10, .f32⟩
  | .hbm, ⟨27, _⟩ => ⟨S16384x10, .f32⟩
  | .hbm, ⟨28, _⟩ => ⟨S16384x10, .f32⟩
  | .hbm, ⟨29, _⟩ => ⟨S16384x10, .f32⟩
  | .hbm, ⟨30, _⟩ => ⟨S16384x10, .f32⟩
  | .hbm, ⟨31, _⟩ => ⟨S_, .f32⟩
  | .hbm, ⟨32, _⟩ => ⟨S16384, .f32⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S16384x1, .f32⟩
  | .hbm, ⟨37, _⟩ => ⟨S16384x10, .f32⟩
  | .hbm, ⟨38, _⟩ => ⟨S16384x10, .f32⟩
  | .hbm, ⟨39, _⟩ => ⟨S16384x10, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x10, .f32⟩
  | .hbm, ⟨44, _⟩ => ⟨S16384x10, .f32⟩
  | .hbm, ⟨45, _⟩ => ⟨S2000x10, .f32⟩
  | .hbm, ⟨46, _⟩ => ⟨S_, .f32⟩
  | .hbm, ⟨47, _⟩ => ⟨S_, .f32⟩
  | .hbm, ⟨48, _⟩ => ⟨S16384x10, .f32⟩
  | .hbm, ⟨49, _⟩ => ⟨S_, .f32⟩
  | .hbm, ⟨50, _⟩ => ⟨S16384, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16384x10, .f32⟩
  | .hbm, ⟨57, _⟩ => ⟨S16384x10, .f32⟩
  | .hbm, ⟨58, _⟩ => ⟨S16384x10, .f32⟩
  | .hbm, ⟨59, _⟩ => ⟨S_, .f32⟩
  | .hbm, ⟨60, _⟩ => ⟨S16384x10, .f32⟩
  | .hbm, ⟨61, _⟩ => ⟨S16384x10, .f32⟩
  | .hbm, ⟨62, _⟩ => ⟨S16384x10, .f32⟩
  | .hbm, ⟨63, _⟩ => ⟨S16384x10, .f32⟩
  | .hbm, ⟨64, _⟩ => ⟨S16384x10, .f32⟩
  | .hbm, ⟨65, _⟩ => ⟨S_, .f32⟩
  | .hbm, ⟨66, _⟩ => ⟨S16384, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S16384x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_v50 : Ref sig .tc := ⟨.hbm, 73, rfl⟩
abbrev main_cst_15 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]

class Facts₀ : Prop where
  bcast_S1x2000_S10x2000_0_1 : S1x2000.BroadcastsInDim S10x2000 (![0, 1] : Fin 2 → Fin S10x2000.rank)
  shapeCasts_S10x2000_S10x200x10 : S10x2000.ShapeCasts S10x200x10
  reducesTo_S10x200x10_S10x200_d2 : S10x200x10.ReducesTo [2] S10x200
  h_S_ : 0 < S_.numel
  bcast_S10x200_S10x200x1_0_1 : S10x200.BroadcastsInDim S10x200x1 (![0, 1] : Fin 2 → Fin S10x200x1.rank)
  bcast_S10x200x1_S10x200x10_0_1_2 : S10x200x1.BroadcastsInDim S10x200x10 (![0, 1, 2] : Fin 3 → Fin S10x200x10.rank)
  shapeCasts_S10x200x10_S10x2000 : S10x200x10.ShapeCasts S10x2000
  bcast_S_S10x2000 : S_.BroadcastsInDim S10x2000 (![] : Fin 0 → Fin S10x2000.rank)
  transposes_S10x2000_S2000x10_1_0 : S10x2000.Transposes [1, 0] S2000x10
  bcast_S_S16384x10 : S_.BroadcastsInDim S16384x10 (![] : Fin 0 → Fin S16384x10.rank)
  bcast_S1x10_S16384x10_0_1 : S1x10.BroadcastsInDim S16384x10 (![0, 1] : Fin 2 → Fin S16384x10.rank)
  reducesTo_S16384x10_S16384_d1 : S16384x10.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x10_0_1 : S16384x1.BroadcastsInDim S16384x10 (![0, 1] : Fin 2 → Fin S16384x10.rank)
  reducesTo_S2000x10_S_d0_1 : S2000x10.ReducesTo [0, 1] S_
  reducesTo_S16384_S_d0 : S16384.ReducesTo [0] S_
  dot_S16384x2000_S2000x10_S16384x10_1_0_0_1_n_n_wf : DotDims.WF S16384x2000 S2000x10 S16384x10 [1] [0] [0] [1] [] []

variable [Facts₀]

def dot_S16384x2000_S2000x10_S16384x10_1_0_0_1_n_n : DotDims S16384x2000 S2000x10 S16384x10 where
  lhsContracting := [1]
  rhsContracting := [0]
  lhsNonContracting := [0]
  rhsNonContracting := [1]
  lhsBatch := []
  rhsBatch := []
  wf := dot_S16384x2000_S2000x10_S16384x10_1_0_0_1_n_n_wf

class Facts : Prop extends Facts₀ where

variable [Facts]
-- ==== Proof.Rows.lean ====
/-
  One batch row of the loss, as functions on the extended reals, and the one law that joins the two programs.

  For a row `x` (2000 inputs) the classifier's logits are `l q = Σ_k x k · W k q + b q` (10 classes); the row maximum
  is taken as `max(-inf, fold max)`, the shifted exponentials `e q = exp (l q - max)` are normalised by their sum: that
  is `soft`, the row of `y_classifier`.  The KL term of the row is `Σ_q y q · (log (ε + y q) - log (ε + t q))`.
  The reconstruction term pairs `y` with the masked row `xm k = x k · mask k` against the decoder's log-probabilities
  `LT k q`; the kernel computes `(Σ_k xm k · LT k q) · (-1/2000)`, the reference `(Σ_k (-(xm k)) · LT k q) / 2000`.
  These agree when every `xm k` and every `LT k q` is a real number (`contrib_eq`): then every product is real, a
  sign moves out of a finite real sum, and dividing by `2000` is multiplying by `1/2000`.  With an infinite `LT`
  entry the two could differ (`⊤ + ⊥ = ⊥` on both sides, before and after the sign), so finiteness is used.
-/
import Idealize.ShloMosaic.PureOps.Ideal
import Idealize.ShloMosaic.Lib.ValueIdx

noncomputable section

namespace Cert.Rows

open Idealize.ShloMosaic Idealize.ShloMosaic.ValueIdx
open scoped BigOperators

/-- The word of `-inf`, the maximum's starting value. -/
abbrev negInf : EReal := Ideal.ofBits .f32 0xFF800000#32
/-- The word of `1e-10`, added under each logarithm. -/
abbrev eps : EReal := Ideal.ofBits .f32 0x2EDBE6FF#32

/-- The classifier's logits of a row. -/
def logit (x : Fin 2000 → EReal) (W : Fin 2000 → Fin 10 → EReal) (b : Fin 10 → EReal) (q : Fin 10) : EReal :=
  (∑ k : Fin 2000, x k * W k q) + b q

/-- The row maximum, as both programs take it: `-inf` against the fold of `max` from `-inf`. -/
def rowMax (l : Fin 10 → EReal) : EReal := max negInf ((Finset.univ : Finset (Fin 10)).fold max negInf l)

/-- The shifted exponentials. -/
def shiftExp (l : Fin 10 → EReal) (q : Fin 10) : EReal := Ideal.exp (l q - rowMax l)

/-- The softmax of a row of logits. -/
def soft (l : Fin 10 → EReal) (q : Fin 10) : EReal := Ideal.div (shiftExp l q) (∑ k : Fin 10, shiftExp l k)

/-- The row's KL term against the target row `t`. -/
def kl (y t : Fin 10 → EReal) : EReal := ∑ q : Fin 10, y q * (Ideal.log (eps + y q) - Ideal.log (eps + t q))

/-- The row's reconstruction term as the kernel computes it: the scale `c` applied after the contraction. -/
def contribScaled (c : EReal) (y : Fin 10 → EReal) (xm : Fin 2000 → EReal) (LT : Fin 2000 → Fin 10 → EReal) : EReal :=
  ∑ q : Fin 10, y q * ((∑ k : Fin 2000, xm k * LT k q) * c)

/-- The row's reconstruction term as the reference computes it: the masked row negated, the contraction divided by `d`. -/
def contribDivided (d : EReal) (y : Fin 10 → EReal) (xm : Fin 2000 → EReal) (LT : Fin 2000 → Fin 10 → EReal) : EReal :=
  ∑ q : Fin 10, y q * Ideal.div (∑ k : Fin 2000, (-(xm k)) * LT k q) d

/-! ## Rows of arrays -/

/-- Row `r` of an `[a, n]` array. -/
def row {a n : ℕ} (X : (⟨2, ![a, n]⟩ : Shape).Idx → EReal) (r : Fin a) : Fin n → EReal := fun k => X (ix2 r k)

/-- An `[a, n]` array by its two coordinates. -/
def mat {a n : ℕ} (W : (⟨2, ![a, n]⟩ : Shape).Idx → EReal) : Fin a → Fin n → EReal := fun k q => W (ix2 k q)

/-- Row `r` of the classifier's output: the softmax of the row's logits against the weights `W` and the bias row `B`. -/
def probs {a : ℕ} (X : (⟨2, ![a, 2000]⟩ : Shape).Idx → EReal) (W : (⟨2, ![2000, 10]⟩ : Shape).Idx → EReal)
    (B : (⟨2, ![1, 10]⟩ : Shape).Idx → EReal) (r : Fin a) : Fin 10 → EReal :=
  soft (logit (row X r) (mat W) (row B 0))

/-- The masked row `x · mask`. -/
def masked {a : ℕ} (X M : (⟨2, ![a, 2000]⟩ : Shape).Idx → EReal) (r : Fin a) : Fin 2000 → EReal :=
  fun k => X (ix2 r k) * M (ix2 r k)

/-- The classifier's output array: at `(r, q)` row `r`'s softmax at class `q`. -/
def probsArr {a : ℕ} (X : (⟨2, ![a, 2000]⟩ : Shape).Idx → EReal) (W : (⟨2, ![2000, 10]⟩ : Shape).Idx → EReal)
    (B : (⟨2, ![1, 10]⟩ : Shape).Idx → EReal) : (⟨2, ![a, 10]⟩ : Shape).Idx → EReal :=
  fun i => probs X W B (i 0) (i 1)

/-- The per-row reconstruction terms as the reference computes them, one per batch row. -/
def contribCol {a : ℕ} (X M : (⟨2, ![a, 2000]⟩ : Shape).Idx → EReal) (LT W : (⟨2, ![2000, 10]⟩ : Shape).Idx → EReal)
    (B : (⟨2, ![1, 10]⟩ : Shape).Idx → EReal) : (⟨1, ![a]⟩ : Shape).Idx → EReal :=
  fun j => contribDivided ((2000 : ℝ) : EReal) (probs X W B (j 0)) (masked X M (j 0)) (mat LT)

/-- The per-row KL terms, one per batch row. -/
def klCol {a : ℕ} (X : (⟨2, ![a, 2000]⟩ : Shape).Idx → EReal) (T : (⟨2, ![a, 10]⟩ : Shape).Idx → EReal)
    (W : (⟨2, ![2000, 10]⟩ : Shape).Idx → EReal) (B : (⟨2, ![1, 10]⟩ : Shape).Idx → EReal) :
    (⟨1, ![a]⟩ : Shape).Idx → EReal :=
  fun j => kl (probs X W B (j 0)) (row T (j 0))

/-- The kernel's two-column statistics array: column 0 the reconstruction term with the scale `-1/2000` applied after
    the contraction, column 1 the KL term. -/
def statsArr {a : ℕ} (X M : (⟨2, ![a, 2000]⟩ : Shape).Idx → EReal) (T : (⟨2, ![a, 10]⟩ : Shape).Idx → EReal)
    (LT W : (⟨2, ![2000, 10]⟩ : Shape).Idx → EReal) (B : (⟨2, ![1, 10]⟩ : Shape).Idx → EReal) :
    (⟨2, ![a, 2]⟩ : Shape).Idx → EReal :=
  fun i => if (i 1).val = 0
    then contribScaled (((-1 / 2000 : ℝ)) : EReal) (probs X W B (i 0)) (masked X M (i 0)) (mat LT)
    else kl (probs X W B (i 0)) (row T (i 0))

/-- A block's softmax row is the array's when the block's row is the array's row and the resident operands are whole. -/
theorem probs_congr {a b : ℕ} (x : (⟨2, ![a, 2000]⟩ : Shape).Idx → EReal) (X : (⟨2, ![b, 2000]⟩ : Shape).Idx → EReal)
    (w W : (⟨2, ![2000, 10]⟩ : Shape).Idx → EReal) (s B : (⟨2, ![1, 10]⟩ : Shape).Idx → EReal) (p : Fin a) (r : Fin b)
    (hx : row x p = row X r) (hw : w = W) (hs : s = B) : probs x w s p = probs X W B r := by
  subst hw hs
  show soft (logit (row x p) (mat w) (row s 0)) = soft (logit (row X r) (mat w) (row s 0))
  rw [hx]

/-- A block's masked row is the array's when both of its rows are. -/
theorem masked_congr {a b : ℕ} (x y : (⟨2, ![a, 2000]⟩ : Shape).Idx → EReal) (X Y : (⟨2, ![b, 2000]⟩ : Shape).Idx → EReal)
    (p : Fin a) (r : Fin b) (hx : row x p = row X r) (hy : row y p = row Y r) : masked x y p = masked X Y r := by
  funext k
  show row x p k * row y p k = row X r k * row Y r k
  rw [hx, hy]

/-- Two rank-2 indices with the same coordinates are equal. -/
theorem idx2_ext {n0 n1 : ℕ} (f g : (⟨2, ![n0, n1]⟩ : Shape).Idx) (h0 : (f 0).val = (g 0).val)
    (h1 : (f 1).val = (g 1).val) : f = g :=
  funext fun a => Fin.ext (by match a with | ⟨0, _⟩ => exact h0 | ⟨1, _⟩ => exact h1)

/-- Two rank-1 indices with the same coordinate are equal. -/
theorem idx1_ext {n0 : ℕ} (f g : (⟨1, ![n0]⟩ : Shape).Idx) (h0 : (f 0).val = (g 0).val) : f = g :=
  funext fun a => Fin.ext (by match a with | ⟨0, _⟩ => exact h0)

/-- A finite sum of reals, coerced, is the sum of the coercions. -/
theorem coe_sum {ι : Type} (s : Finset ι) (f : ι → ℝ) : ((∑ k ∈ s, f k : ℝ) : EReal) = ∑ k ∈ s, (f k : EReal) := by
  classical
  refine Finset.induction_on s (by simp) fun a s ha ih => ?_
  rw [Finset.sum_insert ha, Finset.sum_insert ha, EReal.coe_add, ih]

/-- For a real row and real log-probabilities, scaling the contraction by `-1/2000` is contracting the negated row
    and dividing by `2000`. -/
theorem contraction_eq (xm : Fin 2000 → EReal) (L : Fin 2000 → EReal)
    (hx : ∀ k, ∃ r : ℝ, xm k = (r : EReal)) (hL : ∀ k, ∃ r : ℝ, L k = (r : EReal)) :
    (∑ k : Fin 2000, xm k * L k) * (((-1 / 2000 : ℝ)) : EReal)
      = Ideal.div (∑ k : Fin 2000, (-(xm k)) * L k) ((2000 : ℝ) : EReal) := by
  choose a ha using hx
  choose l hl using hL
  rw [Ideal.div_coe (by norm_num : (2000 : ℝ) ≠ 0)]
  have e1 : (∑ k : Fin 2000, xm k * L k) = ((∑ k : Fin 2000, a k * l k : ℝ) : EReal) := by
    rw [coe_sum]; exact Finset.sum_congr rfl fun k _ => by rw [ha k, hl k, EReal.coe_mul]
  have e2 : (∑ k : Fin 2000, (-(xm k)) * L k) = ((∑ k : Fin 2000, (-(a k)) * l k : ℝ) : EReal) := by
    rw [coe_sum]; exact Finset.sum_congr rfl fun k _ => by rw [ha k, hl k, ← EReal.coe_neg, EReal.coe_mul]
  rw [e1, e2, ← EReal.coe_mul, ← EReal.coe_mul]
  congr 1
  simp only [neg_mul, Finset.sum_neg_distrib]
  ring

/-- The two reconstruction terms of a row agree when the masked row and the log-probabilities are real. -/
theorem contrib_eq (y : Fin 10 → EReal) (xm : Fin 2000 → EReal) (LT : Fin 2000 → Fin 10 → EReal)
    (hx : ∀ k, ∃ r : ℝ, xm k = (r : EReal)) (hL : ∀ k q, ∃ r : ℝ, LT k q = (r : EReal)) :
    contribScaled (((-1 / 2000 : ℝ)) : EReal) y xm LT = contribDivided ((2000 : ℝ) : EReal) y xm LT := by
  unfold contribScaled contribDivided
  exact Finset.sum_congr rfl fun q _ => by rw [contraction_eq xm (fun k => LT k q) hx fun k => hL k q]

/-- Column 0 of the kernel's statistics is the reference's reconstruction column, when the two inputs it multiplies and
    the log-probabilities are real. -/
theorem stats_col0 {a : ℕ} (X M : (⟨2, ![a, 2000]⟩ : Shape).Idx → EReal) (T : (⟨2, ![a, 10]⟩ : Shape).Idx → EReal)
    (LT W : (⟨2, ![2000, 10]⟩ : Shape).Idx → EReal) (B : (⟨2, ![1, 10]⟩ : Shape).Idx → EReal)
    (hX : ∀ i, ∃ r : ℝ, X i = (r : EReal)) (hM : ∀ i, ∃ r : ℝ, M i = (r : EReal))
    (hL : ∀ i, ∃ r : ℝ, LT i = (r : EReal)) (r : Fin a) :
    statsArr X M T LT W B (ix2 r (0 : Fin 2)) = contribCol X M LT W B (ix1 r) := by
  show (if (0 : ℕ) = 0 then contribScaled (((-1 / 2000 : ℝ)) : EReal) (probs X W B r) (masked X M r) (mat LT)
      else kl (probs X W B r) (row T r))
    = contribDivided ((2000 : ℝ) : EReal) (probs X W B r) (masked X M r) (mat LT)
  rw [if_pos rfl]
  refine contrib_eq _ _ _ (fun k => ?_) (fun k q => hL _)
  obtain ⟨x, hx⟩ := hX (ix2 r k)
  obtain ⟨y, hy⟩ := hM (ix2 r k)
  exact ⟨x * y, by show X (ix2 r k) * M (ix2 r k) = _; rw [hx, hy, EReal.coe_mul]⟩

/-- Column 1 of the kernel's statistics is the KL column. -/
theorem stats_col1 {a : ℕ} (X M : (⟨2, ![a, 2000]⟩ : Shape).Idx → EReal) (T : (⟨2, ![a, 10]⟩ : Shape).Idx → EReal)
    (LT W : (⟨2, ![2000, 10]⟩ : Shape).Idx → EReal) (B : (⟨2, ![1, 10]⟩ : Shape).Idx → EReal)
    (r : Fin a) :
    statsArr X M T LT W B (ix2 r (1 : Fin 2)) = klCol X T W B (ix1 r) := by
  show (if (1 : ℕ) = 0 then contribScaled (((-1 / 2000 : ℝ)) : EReal) (probs X W B r) (masked X M r) (mat LT)
      else kl (probs X W B r) (row T r)) = kl (probs X W B r) (row T r)
  rw [if_neg (by decide)]

end Cert.Rows

end
-- ==== Proof.LibKeepdims.lean ====
/-
  A reduction that keeps its axis (a row sum with keepdims), read at an index written by coordinates.

  A row-wise statistic of an `[a, b]` vector — its sum over the lanes — is a vector `[a]`; kept as a column it is
  cast to `[a, 1]` and broadcast back over the `b` lanes.  Three readings make that chain transparent at an
  index `(p, c)`:
  • the lane sum at row `p` is the sum, over `k : Fin b`, of the entries `(p, k)`;
  • the cast `[a] → [a, 1]` reads, at `(i, u)`, the vector at `i` (the unit coordinate `u` carries nothing);
  • the broadcast `[a, 1] → [a, b]` reads, at `(p, c)`, the column's entry of row `p`.
  The row-major position of `(i, u)` in `[a, 1]` is `i · 1 + u = i`, that of `i` in `[a]` is `i`: the cast is the
  identity on positions.  A broadcast keeps a coordinate on an axis of extent other than one and reads `0` on a unit
  axis; when `a = 1` the row coordinate is `0` anyway.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx
open scoped BigOperators

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum over the lanes of an `[a, b]` vector, read at row `p`, is the sum of that row's
    entries.  The side conditions are arguments, so the lemma meets a reduction whatever proofs it carries. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.Keepdims
-- ==== Proof.KernelRows.lean ====
/-
  The kernel body's stored values read at a row of the block.

  The body works on a block of 1024 batch rows.  Its first store is the softmax of each row's logits; its second
  store is a two-column block whose first column is the row's reconstruction term (the masked row contracted
  with the log-probabilities, scaled by the named constant `-1/2000`, paired with the softmax row) and whose second
  column is the row's KL term.  Read at row `p` of the block each is the row function of `Rows` applied to row `p` of
  the loaded blocks: a lane reduction is a sum (or a fold of `max`) over the row, the keepdims cast and broadcast carry
  a row statistic back over the lanes, the matrix product into a zero accumulator is the plain contraction.
-/
import proofs.«149139_j19679540150905_1_alg».proof.Proof.Gen.KernelIdeal.Skeleton
import proofs.«149139_j19679540150905_1_alg».proof.Proof.Rows
import proofs.«149139_j19679540150905_1_alg».proof.Proof.LibKeepdims
import Idealize.ShloMosaic.Lib.Pipeline.Value
import Idealize.ShloMosaic.Lib.ValueIdx
import Idealize.ShloMosaic.PureOps.Ideal.Laws
import Idealize.ShloMosaic.PureOps.IdealRules

noncomputable section

namespace Cert.KernelRows

open Idealize.ShloMosaic Idealize.ShloMosaic.ValueIdx Cert.KernelIdeal Cert.KernelIdeal.Gen Cert.Rows Cert.Keepdims
open scoped BigOperators

/-- The named scale is the rational `-1/2000`, by the certificate's table. -/
theorem scale_eq : Named.named (F := Ideal) Cert.KernelIdeal.κ "neg_inv_2000" (φ := .f32) 0xBA03126F#32
    = ((-1 / 2000 : ℝ) : EReal) :=
  IdealRules.named_const.ideal_named_scalar _ _ _ _ rfl

/-- The block's matrix product into the zero accumulator, at `(p, q)`: the contraction over the 2000 inputs. -/
theorem matmul_rows (lhs : FVec Ideal S1024x2000 .f32) (rhs : FVec Ideal S2000x10 .f32) (p : Fin 1024) (q : Fin 10) :
    matmul dot_S1024x2000_S2000x10_S1024x10_1_0_0_1_n_n none lhs rhs (constant S1024x10 .f32 0x00000000#32) (ix2 p q)
      = ∑ k : Fin 2000, lhs (ix2 p k) * rhs (ix2 k q) := by
  simp only [matmul]
  rw [Ideal.matmul_constant_zero_apply, ← Equiv.sum_comp (contrEquiv1 dot_S1024x2000_S2000x10_S1024x10_1_0_0_1_n_n 2000 rfl rfl).symm]
  refine Finset.sum_congr rfl fun k _ => ?_
  have hk := contrEquiv1_symm_val dot_S1024x2000_S2000x10_S1024x10_1_0_0_1_n_n 2000 rfl rfl k
  have el : dot_S1024x2000_S2000x10_S1024x10_1_0_0_1_n_n.lhsIdx (ix2 p q) ((contrEquiv1 dot_S1024x2000_S2000x10_S1024x10_1_0_0_1_n_n 2000 rfl rfl).symm k) = ix2 p k :=
    idx2_ext _ _
      (by
        unfold DotDims.lhsIdx
        rw [dif_neg (show ¬(0 : Fin S1024x2000.rank) ∈ dot_S1024x2000_S2000x10_S1024x10_1_0_0_1_n_n.lhsBatch by decide),
          dif_pos (show (0 : Fin S1024x2000.rank) ∈ dot_S1024x2000_S2000x10_S1024x10_1_0_0_1_n_n.lhsNonContracting by decide)]
        rfl)
      ((dot_S1024x2000_S2000x10_S1024x10_1_0_0_1_n_n.lhsIdx_val_of_single rfl _ _).trans hk)
  have er : dot_S1024x2000_S2000x10_S1024x10_1_0_0_1_n_n.rhsIdx (ix2 p q) ((contrEquiv1 dot_S1024x2000_S2000x10_S1024x10_1_0_0_1_n_n 2000 rfl rfl).symm k) = ix2 k q :=
    idx2_ext _ _
      ((dot_S1024x2000_S2000x10_S1024x10_1_0_0_1_n_n.rhsIdx_val_of_single rfl _ _).trans hk)
      (by
        unfold DotDims.rhsIdx
        rw [dif_neg (show ¬(1 : Fin S2000x10.rank) ∈ dot_S1024x2000_S2000x10_S1024x10_1_0_0_1_n_n.rhsBatch by decide),
          dif_pos (show (1 : Fin S2000x10.rank) ∈ dot_S1024x2000_S2000x10_S1024x10_1_0_0_1_n_n.rhsNonContracting by decide)]
        rfl)
  rw [el, er]

/-- The bias row broadcast over the block's rows, at `(p, q)`. -/
theorem bias_apply (v : FVec Ideal S1x10 .f32) (p : Fin 1024) (q : Fin 10) :
    broadcastTo S1024x10 v broadcasts_S1x10_S1024x10 (ix2 p q) = v (ix2 (0 : Fin 1) q) := by
  refine broadcastTo_apply v broadcasts_S1x10_S1024x10 (ix2 p q) (ix2 (0 : Fin 1) q) fun ax => ?_
  match ax with
  | ⟨0, _⟩ => rfl
  | ⟨1, _⟩ => rfl

/-- The lane maximum from `-inf`, at row `p`: the fold of `max` over the row. -/
theorem max_rows (src : FVec Ideal S1024x10 .f32) (p : Fin 1024) :
    multiReduction .maximumf [1] S1024 src 0xFF800000#32 reduces_S1024x10_S1024 (.inl rfl) rfl (ix1 p)
      = (Finset.univ : Finset (Fin 10)).fold max negInf (fun k => src (ix2 p k)) := by
  refine (Ideal.multiReduction_maximumf_single src 0xFF800000#32 reduces_S1024x10_S1024 (.inl rfl) rfl (ix1 p)).trans ?_
  have e : (src ∘ (reduces_S1024x10_S1024).lift (ix1 p)) = fun k : Fin 10 => src (ix2 p k) :=
    funext fun k => congrArg src (idx2_ext _ _ rfl rfl)
  rw [e]
  rfl

/-- The lane sum from zero, at row `p`: the sum over the row. -/
theorem sum_rows (src : FVec Ideal S1024x10 .f32) (p : Fin 1024) :
    multiReduction .add [1] S1024 src 0x00000000#32 reduces_S1024x10_S1024 (.inl rfl) rfl (ix1 p)
      = ∑ k : Fin 10, src (ix2 p k) :=
  multiReduction_add_rows src 0x00000000#32 reduces_S1024x10_S1024 (.inl rfl) rfl p

/-! ## The stages of the first store -/

/-- The block's logits. -/
def logitsV (x0 : FVec Ideal S1024x2000 .f32) (x4 : FVec Ideal S2000x10 .f32) (x5 : FVec Ideal S1x10 .f32) : FVec Ideal S1024x10 .f32 :=
  addf (matmul dot_S1024x2000_S2000x10_S1024x10_1_0_0_1_n_n none x0 x4 (constant S1024x10 .f32 0x00000000#32))
    (broadcastTo S1024x10 x5 broadcasts_S1x10_S1024x10)

/-- The block's row maxima. -/
def maxV (x0 : FVec Ideal S1024x2000 .f32) (x4 : FVec Ideal S2000x10 .f32) (x5 : FVec Ideal S1x10 .f32) : FVec Ideal S1024 .f32 :=
  maximumf (broadcast S1024 (Scalar.ofBits .f32 0xFF800000#32))
    (multiReduction .maximumf [1] S1024 (logitsV x0 x4 x5) 0xFF800000#32 reduces_S1024x10_S1024 (.inl rfl) rfl)

/-- The block's shifted exponentials. -/
def expV (x0 : FVec Ideal S1024x2000 .f32) (x4 : FVec Ideal S2000x10 .f32) (x5 : FVec Ideal S1x10 .f32) : FVec Ideal S1024x10 .f32 :=
  exp (subf (logitsV x0 x4 x5)
    (broadcastTo S1024x10 (shapeCast S1024x1 (maxV x0 x4 x5) shapeCasts_S1024_S1024x1) broadcasts_S1024x1_S1024x10))

/-- The first store's payload is the exponentials over their lane sums kept as a column. -/
theorem pay2_eq (x0 : FVec Ideal S1024x2000 .f32) (x4 : FVec Ideal S2000x10 .f32) (x5 : FVec Ideal S1x10 .f32) :
    k0_pay2 (F := Ideal) x0 x4 x5 = divf (expV x0 x4 x5)
      (broadcastTo S1024x10 (shapeCast S1024x1
        (multiReduction .add [1] S1024 (expV x0 x4 x5) 0x00000000#32 reduces_S1024x10_S1024 (.inl rfl) rfl)
        shapeCasts_S1024_S1024x1) broadcasts_S1024x1_S1024x10) := rfl

theorem logitsV_apply (x0 : FVec Ideal S1024x2000 .f32) (x4 : FVec Ideal S2000x10 .f32) (x5 : FVec Ideal S1x10 .f32)
    (p : Fin 1024) (q : Fin 10) : logitsV x0 x4 x5 (ix2 p q) = logit (row x0 p) (mat x4) (row x5 0) q := by
  unfold logitsV
  rw [addf_apply, matmul_rows, bias_apply]
  rfl

theorem maxV_apply (x0 : FVec Ideal S1024x2000 .f32) (x4 : FVec Ideal S2000x10 .f32) (x5 : FVec Ideal S1x10 .f32)
    (p : Fin 1024) : maxV x0 x4 x5 (ix1 p) = rowMax (logit (row x0 p) (mat x4) (row x5 0)) := by
  unfold maxV
  rw [maximumf_apply, max_rows]
  simp only [logitsV_apply]
  rfl

theorem expV_apply (x0 : FVec Ideal S1024x2000 .f32) (x4 : FVec Ideal S2000x10 .f32) (x5 : FVec Ideal S1x10 .f32)
    (p : Fin 1024) (q : Fin 10) : expV x0 x4 x5 (ix2 p q) = shiftExp (logit (row x0 p) (mat x4) (row x5 0)) q := by
  unfold expV
  show Ideal.exp (logitsV x0 x4 x5 (ix2 p q) - broadcastTo S1024x10 (shapeCast S1024x1 (maxV x0 x4 x5) shapeCasts_S1024_S1024x1) broadcasts_S1024x1_S1024x10 (ix2 p q)) = _
  rw [broadcastTo_a1_ab_apply, shapeCast_a_a1_apply, logitsV_apply, maxV_apply]
  rfl

/-- The first store at `(p, q)`: row `p`'s softmax. -/
theorem probs_apply (x0 : FVec Ideal S1024x2000 .f32) (x4 : FVec Ideal S2000x10 .f32) (x5 : FVec Ideal S1x10 .f32)
    (p : Fin 1024) (q : Fin 10) : k0_pay2 (F := Ideal) x0 x4 x5 (ix2 p q) = probs x0 x4 x5 p q := by
  rw [pay2_eq, divf_apply, broadcastTo_a1_ab_apply, shapeCast_a_a1_apply, sum_rows]
  simp only [expV_apply]
  rfl

/-! ## The stages of the second store -/

/-- The masked block contracted with the log-probabilities and scaled by the named constant. -/
def scaledV (x0 x1 : FVec Ideal S1024x2000 .f32) (x3 : FVec Ideal S2000x10 .f32) : FVec Ideal S1024x10 .f32 :=
  mulf (matmul dot_S1024x2000_S2000x10_S1024x10_1_0_0_1_n_n none (mulf x0 x1)
      (shapeCast S2000x10 x3 shapeCasts_S2000x10_S2000x10) (constant S1024x10 .f32 0x00000000#32))
    (broadcast S1024x10 (Named.named (F := Ideal) Cert.KernelIdeal.κ "neg_inv_2000" (φ := .f32) 0xBA03126F#32))

theorem scaledV_apply (x0 x1 : FVec Ideal S1024x2000 .f32) (x3 : FVec Ideal S2000x10 .f32) (p : Fin 1024) (q : Fin 10) :
    scaledV x0 x1 x3 (ix2 p q) = (∑ k : Fin 2000, masked x0 x1 p k * mat x3 k q)
      * Named.named (F := Ideal) Cert.KernelIdeal.κ "neg_inv_2000" (φ := .f32) 0xBA03126F#32 := by
  unfold scaledV
  rw [mulf_apply, matmul_rows, shapeCast_self]
  rfl

/-- The reconstruction column before the concatenation: the lane sum of softmax times scaled contraction, kept as a column. -/
theorem pay3_eq (x0 x1 : FVec Ideal S1024x2000 .f32) (x3 : FVec Ideal S2000x10 .f32)
    (x8 : FVec Ideal S1024x2000 .f32) (x4 : FVec Ideal S2000x10 .f32) (x5 : FVec Ideal S1x10 .f32) :
    k0_pay3 (F := Ideal) x0 x1 x3 x8 x4 x5 = shapeCast S1024x1
      (multiReduction .add [1] S1024 (mulf (k0_pay2 (F := Ideal) x8 x4 x5) (scaledV x0 x1 x3)) 0x00000000#32
        reduces_S1024x10_S1024 (.inl rfl) rfl) shapeCasts_S1024_S1024x1 := rfl

theorem pay3_apply (x0 x1 : FVec Ideal S1024x2000 .f32) (x3 : FVec Ideal S2000x10 .f32)
    (x8 : FVec Ideal S1024x2000 .f32) (x4 : FVec Ideal S2000x10 .f32) (x5 : FVec Ideal S1x10 .f32) (p : Fin 1024) :
    k0_pay3 (F := Ideal) x0 x1 x3 x8 x4 x5 (ix2 p (0 : Fin 1))
      = contribScaled (Named.named (F := Ideal) Cert.KernelIdeal.κ "neg_inv_2000" (φ := .f32) 0xBA03126F#32)
          (probs x8 x4 x5 p) (masked x0 x1 p) (mat x3) := by
  rw [pay3_eq, shapeCast_a_a1_apply, sum_rows]
  simp only [mulf_apply, probs_apply, scaledV_apply]
  rfl

/-- The log-ratio under the KL sum, at `(p, q)`. -/
theorem pay4_apply (x8 : FVec Ideal S1024x2000 .f32) (x4 : FVec Ideal S2000x10 .f32) (x5 : FVec Ideal S1x10 .f32)
    (x2 : FVec Ideal S1024x10 .f32) (p : Fin 1024) (q : Fin 10) :
    k0_pay4 (F := Ideal) x8 x4 x5 x2 (ix2 p q)
      = Ideal.log (eps + k0_pay2 (F := Ideal) x8 x4 x5 (ix2 p q)) - Ideal.log (eps + x2 (ix2 p q)) := rfl

/-- The concatenated block's first column is the column passed first. -/
theorem pay1_left (v24 : FVec Ideal S1024x10 .f32) (v27 : FVec Ideal S1024x1 .f32) (v35 : FVec Ideal S1024x10 .f32)
    (p : Fin 1024) : k0_pay1 (F := Ideal) v24 v27 v35 (ix2 p (0 : Fin 2)) = v27 (ix2 p (0 : Fin 1)) := by
  unfold k0_pay1
  exact concatenate_pair_apply_left (1 : Fin S1024x2.rank) v27 _ concatenates_S1024x1_S1024x1_S1024x2_d1
    (ix2 p (0 : Fin 2)) rfl (ix2 p (0 : Fin 1)) (fun b => by match b with | ⟨0, _⟩ => rfl | ⟨1, _⟩ => rfl)

/-- Its second column is the lane sum of the product of its first and third arguments. -/
theorem pay1_right (v24 : FVec Ideal S1024x10 .f32) (v27 : FVec Ideal S1024x1 .f32) (v35 : FVec Ideal S1024x10 .f32)
    (p : Fin 1024) : k0_pay1 (F := Ideal) v24 v27 v35 (ix2 p (1 : Fin 2)) = ∑ q : Fin 10, v24 (ix2 p q) * v35 (ix2 p q) := by
  unfold k0_pay1
  refine (concatenate_pair_apply_right (1 : Fin S1024x2.rank) v27 _ concatenates_S1024x1_S1024x1_S1024x2_d1
    (ix2 p (1 : Fin 2)) rfl rfl (ix2 p (0 : Fin 1))
    (fun b hb => by match b with | ⟨0, _⟩ => rfl | ⟨1, _⟩ => exact absurd rfl hb) rfl).trans ?_
  rw [shapeCast_a_a1_apply, sum_rows]
  rfl

/-- The second store at `(p, 0)`: row `p`'s reconstruction term, the scale applied after the contraction. -/
theorem stats_left (x0 x1 : FVec Ideal S1024x2000 .f32) (x2 : FVec Ideal S1024x10 .f32) (x3 x4 : FVec Ideal S2000x10 .f32)
    (x5 : FVec Ideal S1x10 .f32) (p : Fin 1024) :
    k0_pay1 (F := Ideal) (k0_pay2 (F := Ideal) x0 x4 x5) (k0_pay3 (F := Ideal) x0 x1 x3 x0 x4 x5)
        (k0_pay4 (F := Ideal) x0 x4 x5 x2) (ix2 p (0 : Fin 2))
      = contribScaled (((-1 / 2000 : ℝ)) : EReal) (probs x0 x4 x5 p) (masked x0 x1 p) (mat x3) := by
  rw [pay1_left, pay3_apply, scale_eq]

/-- The second store at `(p, 1)`: row `p`'s KL term. -/
theorem stats_right (x0 x1 : FVec Ideal S1024x2000 .f32) (x2 : FVec Ideal S1024x10 .f32) (x3 x4 : FVec Ideal S2000x10 .f32)
    (x5 : FVec Ideal S1x10 .f32) (p : Fin 1024) :
    k0_pay1 (F := Ideal) (k0_pay2 (F := Ideal) x0 x4 x5) (k0_pay3 (F := Ideal) x0 x1 x3 x0 x4 x5)
        (k0_pay4 (F := Ideal) x0 x4 x5 x2) (ix2 p (1 : Fin 2))
      = kl (probs x0 x4 x5 p) (row x2 p) := by
  rw [pay1_right]
  simp only [pay4_apply, probs_apply]
  rfl

end Cert.KernelRows

end
-- ==== Proof.KernelBlocks.lean ====
/-
  From the kernel's blocks to its two output arrays.

  The grid has 16 points; at point `t` the three batch-row windows (inputs, mask, targets) and the two output windows
  are at block `t` of 1024 rows, and the three resident windows (log-probabilities, weights, bias) are the whole
  arrays.  So row `p` of a block at point `t` is row `1024·t + p` of its array, and what the body stores at point `t`
  is block `t` of one whole-array function of the arrays as the region finds them: the classifier's output array,
  and the two-column statistics array.  The 16 blocks tile each output array, so after the run the arrays hold
  those functions.
-/
import proofs.«149139_j19679540150905_1_alg».proof.Proof.Gen.KernelIdeal.Frame
import proofs.«149139_j19679540150905_1_alg».proof.Proof.KernelRows
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Rows
open Idealize.ShloMosaic.Pipeline (Dat)

variable (m : (ℓ : Loc nD τ sig) → Buf (Elt Ideal) ℓ)

theorem hz : (![0, 0] : Fin 2 → Nat) = fun _ => 0 := funext fun a => by fin_cases a <;> rfl

/-- Where each window's block sits at point `t`: the row windows at block `t`, the resident ones at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of the block at point `t` is this row of the array. -/
def rowAt (t : Fin cfg0.N) (p : Fin 1024) : Fin 16384 :=
  ⟨1024 * t.val + p.val, by have hN : cfg0.N = 16 := N_0; have := t.isLt; have := p.isLt; omega⟩

/-- The arrays as the region finds them. -/
abbrev X (c : Dev nD) : FVec Ideal S16384x2000 .f32 := V m c main_arg0
abbrev Mk (c : Dev nD) : FVec Ideal S16384x2000 .f32 := V m c main_arg1
abbrev Tg (c : Dev nD) : FVec Ideal S16384x10 .f32 := V m c main_arg2
abbrev LT (c : Dev nD) : FVec Ideal S2000x10 .f32 := V m c main_v12
abbrev Wy (c : Dev nD) : FVec Ideal S2000x10 .f32 := V m c main_arg5
abbrev By (c : Dev nD) : FVec Ideal S1x10 .f32 := V m c main_arg6

theorem row_blk0 (c : Dev nD) (t : Fin cfg0.N) (p : Fin 1024) :
    row (iblk m c 0 t : FVec Ideal S1024x2000 .f32) p = row (X m c) (rowAt t p) := by
  obtain ⟨h0, h1, -⟩ := idx_facts t
  funext k
  show V m c main_arg0 (((cfg0.win 0).blk t).view.emb (ix2 p k)) = V m c main_arg0 (ix2 (rowAt t p) k)
  refine congrArg _ (funext fun a => Fin.ext ?_)
  match a with
  | ⟨0, _⟩ => show win0_0.index t (0 : Fin 2) * 1024 + 1 * p.val = 1024 * t.val + p.val; omega
  | ⟨1, _⟩ => show win0_0.index t (1 : Fin 2) * 2000 + 1 * k.val = k.val; omega

theorem row_blk1 (c : Dev nD) (t : Fin cfg0.N) (p : Fin 1024) :
    row (iblk m c 1 t : FVec Ideal S1024x2000 .f32) p = row (Mk m c) (rowAt t p) := by
  obtain ⟨-, -, h0, h1, -⟩ := idx_facts t
  funext k
  show V m c main_arg1 (((cfg0.win 1).blk t).view.emb (ix2 p k)) = V m c main_arg1 (ix2 (rowAt t p) k)
  refine congrArg _ (funext fun a => Fin.ext ?_)
  match a with
  | ⟨0, _⟩ => show win0_1.index t (0 : Fin 2) * 1024 + 1 * p.val = 1024 * t.val + p.val; omega
  | ⟨1, _⟩ => show win0_1.index t (1 : Fin 2) * 2000 + 1 * k.val = k.val; omega

theorem row_blk2 (c : Dev nD) (t : Fin cfg0.N) (p : Fin 1024) :
    row (iblk m c 2 t : FVec Ideal S1024x10 .f32) p = row (Tg m c) (rowAt t p) := by
  obtain ⟨-, -, -, -, h0, h1, -⟩ := idx_facts t
  funext k
  show V m c main_arg2 (((cfg0.win 2).blk t).view.emb (ix2 p k)) = V m c main_arg2 (ix2 (rowAt t p) k)
  refine congrArg _ (funext fun a => Fin.ext ?_)
  match a with
  | ⟨0, _⟩ => show win0_2.index t (0 : Fin 2) * 1024 + 1 * p.val = 1024 * t.val + p.val; omega
  | ⟨1, _⟩ => show win0_2.index t (1 : Fin 2) * 10 + 1 * k.val = k.val; omega

theorem whole_blk3 (c : Dev nD) (t : Fin cfg0.N) : (iblk m c 3 t : FVec Ideal S2000x10 .f32) = LT m c := by
  obtain ⟨-, -, -, -, -, -, h0, h1, -⟩ := idx_facts t
  funext y
  show V m c main_v12 (((cfg0.win 3).blk t).view.emb y) = V m c main_v12 y
  refine congrArg _ (funext fun a => Fin.ext ?_)
  match a with
  | ⟨0, _⟩ => show win0_3.index t (0 : Fin 2) * 2000 + 1 * (y 0).val = (y 0).val; omega
  | ⟨1, _⟩ => show win0_3.index t (1 : Fin 2) * 10 + 1 * (y 1).val = (y 1).val; omega

theorem whole_blk4 (c : Dev nD) (t : Fin cfg0.N) : (iblk m c 4 t : FVec Ideal S2000x10 .f32) = Wy m c := by
  obtain ⟨-, -, -, -, -, -, -, -, h0, h1, -⟩ := idx_facts t
  funext y
  show V m c main_arg5 (((cfg0.win 4).blk t).view.emb y) = V m c main_arg5 y
  refine congrArg _ (funext fun a => Fin.ext ?_)
  match a with
  | ⟨0, _⟩ => show win0_4.index t (0 : Fin 2) * 2000 + 1 * (y 0).val = (y 0).val; omega
  | ⟨1, _⟩ => show win0_4.index t (1 : Fin 2) * 10 + 1 * (y 1).val = (y 1).val; omega

theorem whole_blk5 (c : Dev nD) (t : Fin cfg0.N) : (iblk m c 5 t : FVec Ideal S1x10 .f32) = By m c := by
  obtain ⟨-, -, -, -, -, -, -, -, -, -, h0, h1, -⟩ := idx_facts t
  funext y
  show V m c main_arg6 (((cfg0.win 5).blk t).view.emb y) = V m c main_arg6 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 10 + 1 * (y 1).val = (y 1).val; omega

/-- The output blocks' indices in their arrays. -/
theorem emb6 (t : Fin cfg0.N) (p : Fin 1024) (q : Fin 10) :
    (((cfg0.win 6).blk t).view.emb (ix2 p q) : S16384x10.Idx) = ix2 (rowAt t p) q := by
  obtain ⟨-, -, -, -, -, -, -, -, -, -, -, -, h0, h1, -⟩ := idx_facts t
  refine funext fun a => Fin.ext ?_
  match a with
  | ⟨0, _⟩ => show win0_6.index t (0 : Fin 2) * 1024 + 1 * p.val = 1024 * t.val + p.val; omega
  | ⟨1, _⟩ => show win0_6.index t (1 : Fin 2) * 10 + 1 * q.val = q.val; omega

theorem emb7 (t : Fin cfg0.N) (p : Fin 1024) (s : Fin 2) :
    (((cfg0.win 7).blk t).view.emb (ix2 p s) : S16384x2.Idx) = ix2 (rowAt t p) s := by
  obtain ⟨-, -, -, -, -, -, -, -, -, -, -, -, -, -, h0, h1⟩ := idx_facts t
  refine funext fun a => Fin.ext ?_
  match a with
  | ⟨0, _⟩ => show win0_7.index t (0 : Fin 2) * 1024 + 1 * p.val = 1024 * t.val + p.val; omega
  | ⟨1, _⟩ => show win0_7.index t (1 : Fin 2) * 2 + 1 * s.val = s.val; omega

/-! ## What each point writes back -/

/-- Point `t` writes back block `t` of the classifier's output array. -/
theorem flushed6_eq (c : Dev nD) (t : Fin cfg0.N) :
    (dats m 0 c).flushed 6 t
      = ((cfg0.win 6).blk t).view.read (Elt Ideal) (probsArr (X m c) (Wy m c) (By m c)) := by
  show (cfg0.win 6).cut (grid0.coords t) ((dats m 0 c).after 6 t) = _
  rw [after0_6]
  unfold out0_6
  rw [View.canon_unit_zero hz]
  simp only [View.ld_unit_zero (S := S1024x2000) hz, View.ld_unit_zero (S := S2000x10) hz, View.ld_unit_zero (S := S1x10) hz]
  funext j
  obtain ⟨p, q, rfl⟩ : ∃ (p : Fin 1024) (q : Fin 10), j = ix2 p q := ⟨j 0, j 1, eq_ix2 j⟩
  show k0_pay2 (F := Ideal) (iblk m c 0 t) (iblk m c 4 t) (iblk m c 5 t) (ix2 p q)
    = probsArr (X m c) (Wy m c) (By m c) (((cfg0.win 6).blk t).view.emb (ix2 p q))
  refine (Cert.KernelRows.probs_apply (iblk m c 0 t) (iblk m c 4 t) (iblk m c 5 t) p q).trans ?_
  rw [emb6]
  show probs (iblk m c 0 t) (iblk m c 4 t) (iblk m c 5 t) p q = probs (X m c) (Wy m c) (By m c) (rowAt t p) q
  rw [probs_congr (iblk m c 0 t) (X m c) (iblk m c 4 t) (Wy m c) (iblk m c 5 t) (By m c) p (rowAt t p)
    (row_blk0 m c t p) (whole_blk4 m c t) (whole_blk5 m c t)]

/-- Point `t` writes back block `t` of the statistics array. -/
theorem flushed7_eq (c : Dev nD) (t : Fin cfg0.N) :
    (dats m 0 c).flushed 7 t
      = ((cfg0.win 7).blk t).view.read (Elt Ideal) (statsArr (X m c) (Mk m c) (Tg m c) (LT m c) (Wy m c) (By m c)) := by
  show (cfg0.win 7).cut (grid0.coords t) ((dats m 0 c).after 7 t) = _
  rw [after0_7]
  unfold out0_7
  rw [View.canon_unit_zero hz]
  simp only [View.ld_unit_zero (S := S1024x2000) hz, View.ld_unit_zero (S := S2000x10) hz, View.ld_unit_zero (S := S1x10) hz,
    View.ld_unit_zero (S := S1024x10) hz]
  have hp := probs_congr (iblk m c 0 t) (X m c) (iblk m c 4 t) (Wy m c) (iblk m c 5 t) (By m c)
  funext j
  obtain ⟨p, s, rfl⟩ : ∃ (p : Fin 1024) (s : Fin 2), j = ix2 p s := ⟨j 0, j 1, eq_ix2 j⟩
  have hpr := hp p (rowAt t p) (row_blk0 m c t p) (whole_blk4 m c t) (whole_blk5 m c t)
  match s with
  | ⟨0, _⟩ =>
    show k0_pay1 (F := Ideal) (k0_pay2 (F := Ideal) (iblk m c 0 t) (iblk m c 4 t) (iblk m c 5 t))
        (k0_pay3 (F := Ideal) (iblk m c 0 t) (iblk m c 1 t) (iblk m c 3 t) (iblk m c 0 t) (iblk m c 4 t) (iblk m c 5 t))
        (k0_pay4 (F := Ideal) (iblk m c 0 t) (iblk m c 4 t) (iblk m c 5 t) (iblk m c 2 t)) (ix2 p (0 : Fin 2))
      = statsArr (X m c) (Mk m c) (Tg m c) (LT m c) (Wy m c) (By m c) (((cfg0.win 7).blk t).view.emb (ix2 p (0 : Fin 2)))
    refine (Cert.KernelRows.stats_left (iblk m c 0 t) (iblk m c 1 t) (iblk m c 2 t) (iblk m c 3 t) (iblk m c 4 t) (iblk m c 5 t) p).trans ?_
    rw [emb7, hpr, masked_congr (iblk m c 0 t) (iblk m c 1 t) (X m c) (Mk m c) p (rowAt t p) (row_blk0 m c t p) (row_blk1 m c t p),
      whole_blk3]
    exact (if_pos rfl).symm
  | ⟨1, _⟩ =>
    show k0_pay1 (F := Ideal) (k0_pay2 (F := Ideal) (iblk m c 0 t) (iblk m c 4 t) (iblk m c 5 t))
        (k0_pay3 (F := Ideal) (iblk m c 0 t) (iblk m c 1 t) (iblk m c 3 t) (iblk m c 0 t) (iblk m c 4 t) (iblk m c 5 t))
        (k0_pay4 (F := Ideal) (iblk m c 0 t) (iblk m c 4 t) (iblk m c 5 t) (iblk m c 2 t)) (ix2 p (1 : Fin 2))
      = statsArr (X m c) (Mk m c) (Tg m c) (LT m c) (Wy m c) (By m c) (((cfg0.win 7).blk t).view.emb (ix2 p (1 : Fin 2)))
    refine (Cert.KernelRows.stats_right (iblk m c 0 t) (iblk m c 1 t) (iblk m c 2 t) (iblk m c 3 t) (iblk m c 4 t) (iblk m c 5 t) p).trans ?_
    rw [emb7, hpr, row_blk2]
    exact (stats_col1 (X m c) (Mk m c) (Tg m c) (LT m c) (Wy m c) (By m c) (rowAt t p)).symm

/-! ## The arrays after the run -/

/-- The point whose block holds batch row `r`. -/
def pointOf (r : Fin 16384) : Fin cfg0.N :=
  ⟨r.val / 1024, by have hN : cfg0.N = 16 := N_0; have := r.isLt; omega⟩

/-- The first output array ends holding the classifier's output. -/
theorem final6 (c : Dev nD) : (dats m 0 c).arrAt 6 cfg0.N = probsArr (X m c) (Wy m c) (By m c) :=
  (dats m 0 c).arrAt_eq_of_cover 6 _ (fun t _ => flushed6_eq m c t) fun i =>
    ⟨pointOf (i 0), flush0_6 _, by
      obtain ⟨-, -, -, -, -, -, -, -, -, -, -, -, h0, h1, -⟩ := idx_facts (pointOf (i 0))
      show i ∈ ((View.whole main_v13_0).slice (win0_6.rect (pointOf (i 0)))).set
      rw [View.set_slice_whole, Rect.mem_set_unit]
      intro a
      have hr : (i 0).val < 16384 := (i 0).isLt
      have hq : (i 1).val < 10 := (i 1).isLt
      have hv : (pointOf (i 0)).val = (i 0).val / 1024 := rfl
      match a with
      | ⟨0, _⟩ =>
        show win0_6.index (pointOf (i 0)) (0 : Fin 2) * 1024 ≤ (i 0).val
          ∧ (i 0).val < win0_6.index (pointOf (i 0)) (0 : Fin 2) * 1024 + 1024
        omega
      | ⟨1, _⟩ =>
        show win0_6.index (pointOf (i 0)) (1 : Fin 2) * 10 ≤ (i 1).val
          ∧ (i 1).val < win0_6.index (pointOf (i 0)) (1 : Fin 2) * 10 + 10
        omega⟩

/-- The second output array ends holding the statistics. -/
theorem final7 (c : Dev nD) :
    (dats m 0 c).arrAt 7 cfg0.N = statsArr (X m c) (Mk m c) (Tg m c) (LT m c) (Wy m c) (By m c) :=
  (dats m 0 c).arrAt_eq_of_cover 7 _ (fun t _ => flushed7_eq m c t) fun i =>
    ⟨pointOf (i 0), flush0_7 _, by
      obtain ⟨-, -, -, -, -, -, -, -, -, -, -, -, -, -, h0, h1⟩ := idx_facts (pointOf (i 0))
      show i ∈ ((View.whole main_v13_1).slice (win0_7.rect (pointOf (i 0)))).set
      rw [View.set_slice_whole, Rect.mem_set_unit]
      intro a
      have hr : (i 0).val < 16384 := (i 0).isLt
      have hq : (i 1).val < 2 := (i 1).isLt
      have hv : (pointOf (i 0)).val = (i 0).val / 1024 := rfl
      match a with
      | ⟨0, _⟩ =>
        show win0_7.index (pointOf (i 0)) (0 : Fin 2) * 1024 ≤ (i 0).val
          ∧ (i 0).val < win0_7.index (pointOf (i 0)) (0 : Fin 2) * 1024 + 1024
        omega
      | ⟨1, _⟩ =>
        show win0_7.index (pointOf (i 0)) (1 : Fin 2) * 2 ≤ (i 1).val
          ∧ (i 1).val < win0_7.index (pointOf (i 0)) (1 : Fin 2) * 2 + 2
        omega⟩

end Cert.KernelIdeal.Blocks

end
-- ==== Proof.Loss.lean ====
/-
  The scalar loss from the two columns of per-row terms and the classifier's weights, and a column of a two-column
  array read at a row.

  Both programs end the same way: each column of per-row terms is summed over the batch from zero and divided by the
  batch size `16384`; the KL mean is scaled by `1e-4`; the absolute weights are summed from zero and scaled by
  `2.5e-7`; the three are added.  Stated once (`lossOf`), so that the two runs meet at one term and the sums are
  never opened.  The kernel gets its two columns by slicing its `[16384, 2]` statistics array at a column and
  dropping the unit axis: at row `r` that reads the array at `(r, column)`.
-/
import Idealize.ShloMosaic.Lib.Pipeline.Value
import Idealize.ShloMosaic.Lib.ValueIdx
import Idealize.ShloMosaic.PureOps.Ideal

noncomputable section

namespace Cert.Loss

open Idealize.ShloMosaic Idealize.ShloMosaic.ValueIdx

abbrev S0 : Shape := ⟨0, ![]⟩
abbrev SB : Shape := ⟨1, ![16384]⟩
abbrev SB1 : Shape := ⟨2, ![16384, 1]⟩
abbrev SB2 : Shape := ⟨2, ![16384, 2]⟩
abbrev SW : Shape := ⟨2, ![2000, 10]⟩

theorem h0 : 0 < S0.numel := by decide
theorem hB : SB.ReducesTo [0] S0 := by decide
theorem hW : SW.ReducesTo [0, 1] S0 := by decide

/-- The loss: mean of the first column, plus `1e-4` times the mean of the second, plus `2.5e-7` times the sum of the
    absolute weights. -/
def lossOf (c0 c1 : FVec Ideal SB .f32) (W : FVec Ideal SW .f32) : FVec Ideal S0 .f32 :=
  addf
    (addf
      (Host.divf (Host.reduceAdd c0 (constant (F := Ideal) S0 .f32 0x00000000#32) hB h0) (constant (F := Ideal) S0 .f32 0x46800000#32))
      (mulf (constant (F := Ideal) S0 .f32 0x38D1B717#32)
        (Host.divf (Host.reduceAdd c1 (constant (F := Ideal) S0 .f32 0x00000000#32) hB h0) (constant (F := Ideal) S0 .f32 0x46800000#32))))
    (mulf (constant (F := Ideal) S0 .f32 0x348637BD#32)
      (Host.reduceAdd (Host.absf W) (constant (F := Ideal) S0 .f32 0x00000000#32) hW h0))

/-- Column 0 of a two-column array, sliced out and flattened, at row `r`. -/
theorem col0_apply {α : Type} (S : SB2.Idx → α) (hs : SB2.Slices ![0, 0] SB1) (hc : SB1.ShapeCasts SB) (r : Fin 16384) :
    shapeCast SB (extractStridedSlice SB1 ![0, 0] S hs) hc (ix1 r) = S (ix2 r (0 : Fin 2)) := by
  refine (shapeCast_apply _ hc (ix1 r) (ix2 r (0 : Fin 1)) ?_).trans ?_
  · rw [Shape.rowMajor_val_two, Shape.rowMajor_val_one]
    show r.val * 1 + 0 = r.val
    omega
  · exact extractStridedSlice_apply _ S hs _ (ix2 r (0 : Fin 2)) (fun a => by
      match a with
      | ⟨0, _⟩ => show r.val = 0 + r.val; omega
      | ⟨1, _⟩ => rfl)

/-- Column 1 likewise. -/
theorem col1_apply {α : Type} (S : SB2.Idx → α) (hs : SB2.Slices ![0, 1] SB1) (hc : SB1.ShapeCasts SB) (r : Fin 16384) :
    shapeCast SB (extractStridedSlice SB1 ![0, 1] S hs) hc (ix1 r) = S (ix2 r (1 : Fin 2)) := by
  refine (shapeCast_apply _ hc (ix1 r) (ix2 r (0 : Fin 1)) ?_).trans ?_
  · rw [Shape.rowMajor_val_two, Shape.rowMajor_val_one]
    show r.val * 1 + 0 = r.val
    omega
  · exact extractStridedSlice_apply _ S hs _ (ix2 r (1 : Fin 2)) (fun a => by
      match a with
      | ⟨0, _⟩ => show r.val = 0 + r.val; omega
      | ⟨1, _⟩ => rfl)

end Cert.Loss

end
-- ==== Proof.Consts.lean ====
/-
  The float words this kernel's two programs spell whose VALUE the proof needs, as the extended reals they denote.

  Three words matter beyond being the same word on both sides: the smoothing term `1e-10` added under each
  logarithm must be a positive real (so that the logarithm of `1e-10 + p`, `p > 0`, is a real number); the
  reference's divisor `2000.0` must be the real `2000` (so that dividing by it is multiplying by `1/2000`); and the
  zero word is `0`.
-/
import Idealize.ShloMosaic.PureOps.Ideal

noncomputable section

namespace Cert.Consts

open Idealize.ShloMosaic

/-- The word of `2000.0` denotes the real `2000`. -/
theorem ofBits_2000 : Ideal.ofBits .f32 0x44FA0000#32 = ((2000 : ℝ) : EReal) := by
  simp [Ideal.ofBits, Ideal.ieee, -EReal.coe_mul]; norm_num

/-- The word of `1e-10` denotes a positive real. -/
theorem ofBits_eps : ∃ e : ℝ, 0 < e ∧ Ideal.ofBits .f32 0x2EDBE6FF#32 = (e : EReal) := by
  refine ⟨_, ?_, by simp [Ideal.ofBits, Ideal.ieee, -EReal.coe_mul]; rfl⟩
  positivity

end Cert.Consts

end
-- ==== Proof.RefRows.lean ====
/-
  The reference's stages read at a batch row.

  Each stage of the reference is one array operation; read at the index `(r, q)` (batch row `r`, class `q`) the
  classifier output is the softmax of row `r`'s logits, and the two per-row reductions are the row's
  reconstruction term (the negated masked row contracted with the log-probabilities, divided by `2000`, paired
  with the softmax row) and its KL term.  The host's sums start from the zero word, which is `0`.
-/
import proofs.«149139_j19679540150905_1_alg».proof.Proof.Gen.ReferenceIdeal.Read
import proofs.«149139_j19679540150905_1_alg».proof.Proof.Rows
import proofs.«149139_j19679540150905_1_alg».proof.Proof.Loss
import proofs.«149139_j19679540150905_1_alg».proof.Proof.Consts

noncomputable section

namespace Cert.RefRows

open Idealize.ShloMosaic Idealize.ShloMosaic.ValueIdx Cert.ReferenceIdeal Cert.ReferenceIdeal.Gen Cert.ReferenceIdeal.Read Cert.Rows
open scoped BigOperators

abbrev Big := (⟨S16384x2000, .f32⟩ : BufTy).Contents (Elt Ideal)
abbrev Tgt := (⟨S16384x10, .f32⟩ : BufTy).Contents (Elt Ideal)
abbrev Dec := (⟨S10x2000, .f32⟩ : BufTy).Contents (Elt Ideal)
abbrev DecB := (⟨S1x2000, .f32⟩ : BufTy).Contents (Elt Ideal)
abbrev Wt := (⟨S2000x10, .f32⟩ : BufTy).Contents (Elt Ideal)
abbrev Bs := (⟨S1x10, .f32⟩ : BufTy).Contents (Elt Ideal)

/-- The logits at `(r, q)`. -/
theorem logits_apply (X : Big) (W : Wt) (B : Bs) (r : Fin 16384) (q : Fin 10) :
    val_main_v20 (F := Ideal) X W B (ix2 r q) = logit (row X r) (mat W) (row B 0) q := by
  rw [val_main_v20_apply, val_main_v18_apply, val_main_v19_apply]
  have e1 : ∀ k, lidx_main_v18 (ix2 r q) k = ix2 r k := fun k => idx2_ext _ _ rfl rfl
  have e2 : ∀ k, ridx_main_v18 (ix2 r q) k = ix2 k q := fun k => idx2_ext _ _ rfl rfl
  have e3 : idx_main_v19 (ix2 r q) = ix2 (0 : Fin 1) q := idx2_ext _ _ rfl rfl
  simp only [e1, e2, e3]
  rfl

/-- The row maximum at `r`. -/
theorem rowMax_apply (X : Big) (W : Wt) (B : Bs) (r : Fin 16384) :
    val_main_v23 (F := Ideal) X W B (ix1 r) = rowMax (logit (row X r) (mat W) (row B 0)) := by
  rw [val_main_v23_apply, val_main_v22_apply, val_main_cst_3_apply]
  unfold val_main_v21
  rw [Host.reduce_eq_fold_single FloatOps.maximumf _ _ reducesTo_S16384x10_S16384_d1 (by decide) h_S_]
  have e : (val_main_v20 (F := Ideal) X W B ∘ (by decide : S16384x10.Reduces [1] S16384).lift (ix1 r))
      = logit (row X r) (mat W) (row B 0) := funext fun k => by
    show val_main_v20 (F := Ideal) X W B _ = _
    rw [← logits_apply X W B r k]
    exact congrArg _ (idx2_ext _ _ rfl rfl)
  rw [e]
  rfl

/-- The shifted exponential at `(r, q)`. -/
theorem shiftExp_apply (X : Big) (W : Wt) (B : Bs) (r : Fin 16384) (q : Fin 10) :
    val_main_v27 (F := Ideal) X W B (ix2 r q) = shiftExp (logit (row X r) (mat W) (row B 0)) q := by
  rw [val_main_v27_apply, val_main_v26_apply, val_main_v25_apply, val_main_v24_apply, logits_apply]
  have e : idx_main_v24 (idx_main_v25 (ix2 r q)) = ix1 r := idx1_ext _ _ rfl
  rw [e, rowMax_apply]
  rfl

/-- The classifier output at `(r, q)`: row `r`'s softmax. -/
theorem probs_apply (X : Big) (W : Wt) (B : Bs) (r : Fin 16384) (q : Fin 10) :
    val_main_v31 (F := Ideal) X W B (ix2 r q) = probs X W B r q := by
  rw [val_main_v31_apply, val_main_v30_apply, val_main_v29_apply, val_main_v28_apply, val_main_cst_4_apply,
    shiftExp_apply]
  have e : ∀ k, idx_main_v28 (idx_main_v29 (idx_main_v30 (ix2 r q))) k = ix2 r k := fun k => idx2_ext _ _ rfl rfl
  simp only [e, shiftExp_apply, Ideal.ofBits_def, Ideal.ofBits_zero_f32, zero_add]
  rfl

/-- The decoder's log-probabilities, transposed to `[2000, 10]`: the reference's own stage. -/
abbrev logProbT (Wr : Dec) (Br : DecB) : Wt := val_main_v14 (F := Ideal) Wr Br

/-- The reference's per-row reconstruction sum at `r`. -/
theorem contrib_apply (X M : Big) (Wr : Dec) (Br : DecB) (W : Wt) (B : Bs) (r : Fin 16384) :
    val_main_v35 (F := Ideal) X M Wr Br W B (ix1 r)
      = contribDivided (Ideal.ofBits .f32 0x44FA0000#32) (probs X W B r) (masked X M r) (mat (logProbT Wr Br)) := by
  rw [val_main_v35_apply, val_main_cst_6_apply]
  have e : ∀ k, idx_main_v35 (ix1 r) k = ix2 r k := fun k => idx2_ext _ _ rfl rfl
  simp only [e, val_main_v34_apply, val_main_v17_apply, val_main_v16_apply, val_main_cst_1_apply, val_main_v15_apply,
    val_main_v13_apply, val_main_v12_apply, probs_apply, Ideal.ofBits_def, Ideal.ofBits_zero_f32, zero_add,
    Ideal.mulf_def, Ideal.hostDivf_def, Ideal.hostNegf_def, Ideal.negf_def]
  have e1 : ∀ (q : Fin 10) k, lidx_main_v15 (ix2 r q) k = ix2 r k := fun q k => idx2_ext _ _ rfl rfl
  have e2 : ∀ (q : Fin 10) k, ridx_main_v15 (ix2 r q) k = ix2 k q := fun q k => idx2_ext _ _ rfl rfl
  simp only [e1, e2]
  rfl

/-- The reference's per-row KL sum at `r`. -/
theorem kl_apply (X : Big) (T : Tgt) (W : Wt) (B : Bs) (r : Fin 16384) :
    val_main_v46 (F := Ideal) X T W B (ix1 r) = kl (probs X W B r) (row T r) := by
  rw [val_main_v46_apply, val_main_cst_11_apply]
  have e : ∀ k, idx_main_v46 (ix1 r) k = ix2 r k := fun k => idx2_ext _ _ rfl rfl
  simp only [e, val_main_v45_apply, val_main_v44_apply, val_main_v43_apply, val_main_v42_apply, val_main_v41_apply,
    val_main_v40_apply, val_main_v39_apply, val_main_v38_apply, val_main_cst_9_apply, val_main_cst_10_apply,
    probs_apply, Ideal.ofBits_def, Ideal.ofBits_zero_f32, zero_add, Ideal.mulf_def, Ideal.subf_def, Ideal.addf_def,
    Ideal.hostUnary_log_def]
  rfl

/-! ## The reference's results as whole arrays -/

/-- The reference's first result is the classifier's output array. -/
theorem result0_eq (X : Big) (W : Wt) (B : Bs) : val_main_v31 (F := Ideal) X W B = probsArr X W B :=
  funext fun i => by
    obtain ⟨r, q, rfl⟩ : ∃ (r : Fin 16384) (q : Fin 10), i = ix2 r q := ⟨i 0, i 1, eq_ix2 i⟩
    rw [probs_apply]; rfl

/-- Its reconstruction column. -/
theorem contribCol_eq (X M : Big) (Wr : Dec) (Br : DecB) (W : Wt) (B : Bs) :
    val_main_v35 (F := Ideal) X M Wr Br W B = contribCol X M (logProbT Wr Br) W B :=
  funext fun j => by
    obtain ⟨r, rfl⟩ : ∃ r : Fin 16384, j = ix1 r := ⟨j 0, eq_ix1 j⟩
    rw [contrib_apply, Cert.Consts.ofBits_2000]; rfl

/-- Its KL column. -/
theorem klCol_eq (X : Big) (T : Tgt) (W : Wt) (B : Bs) : val_main_v46 (F := Ideal) X T W B = klCol X T W B :=
  funext fun j => by
    obtain ⟨r, rfl⟩ : ∃ r : Fin 16384, j = ix1 r := ⟨j 0, eq_ix1 j⟩
    rw [kl_apply]; rfl

/-- Its second result is the loss of those two columns and the weights. -/
theorem result1_eq (X M : Big) (T : Tgt) (Wr : Dec) (Br : DecB) (W : Wt) (B : Bs) :
    val_main_v52 (F := Ideal) X M T Wr Br W B
      = Cert.Loss.lossOf (contribCol X M (logProbT Wr Br) W B) (klCol X T W B) W := by
  rw [← contribCol_eq, ← klCol_eq]
  rfl

end Cert.RefRows

end
-- ==== Proof.KernelRun.lean ====
/-
  The idealized kernel's run, read: its two results as functions of the argument arrays.

  Before the region the host lines compute the decoder's transposed log-probabilities — the same stage the reference
  computes, line for line.  The region leaves the classifier's output in the first result and the two-column
  statistics in an intermediate array.  After the region the host lines slice the two columns out, and form the loss
  from them and the absolute weights.  When the inputs, the mask and the log-probabilities are real, column 0 is the
  reference's reconstruction column (the sign moves across the contraction and the scale `-1/2000` is the division by
  `2000`), so the loss is the reference's.
-/
import proofs.«149139_j19679540150905_1_alg».proof.Proof.KernelBlocks
import proofs.«149139_j19679540150905_1_alg».proof.Proof.RefRows
import proofs.«149139_j19679540150905_1_alg».proof.Proof.Loss
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.KernelIdeal.Blocks Cert.Rows
open Idealize.ShloMosaic.Pipeline (Dat)

variable (m : (ℓ : Loc nD τ sig) → Buf (Elt Ideal) ℓ) (ρ : Dev nD → PrngReg)

/-- The log-probabilities the region finds are the reference's stage of the decoder's parameters. -/
theorem LT_eq (c : Dev nD) :
    LT m c = Cert.RefRows.logProbT (m ((c : Thread nD τ).loc main_arg3)) (m ((c : Thread nD τ).loc main_arg4)) := by
  show StableHlo.after hostOps0 (fun b => m (c, b)) (Proc.devRef .tc main_v12) = _
  after_results
  rfl

set_option maxHeartbeats 2000000 in
/-- The second result after the host lines that follow the region: the loss of the statistics array's two columns
    and the weights. -/
theorem tail_eq (c : Dev nD) :
    Pipeline.afterTail₀ cfgs (dats m) 0 (V0 m) [hostOps1] c main_v27
      = Cert.Loss.lossOf
          (shapeCast S16384 (extractStridedSlice S16384x1 ![0, 0] ((dats m 0 c).arrAt 7 cfg0.N) slices_S16384x2_S16384x1_0_0) shapeCasts_S16384x1_S16384)
          (shapeCast S16384 (extractStridedSlice S16384x1 ![0, 1] ((dats m 0 c).arrAt 7 cfg0.N) slices_S16384x2_S16384x1_0_1) shapeCasts_S16384x1_S16384)
          ((dats m 0 c).arrAt 4 cfg0.N) := by
  have key : ∀ Vw : Valuation τ sig (Elt Ideal),
      StableHlo.after (hostOps1 (F := Ideal)) Vw (Proc.devRef .tc main_v27)
        = Cert.Loss.lossOf
            (shapeCast S16384 (extractStridedSlice S16384x1 ![0, 0] (Vw (Proc.devRef .tc main_v13_1)) slices_S16384x2_S16384x1_0_0) shapeCasts_S16384x1_S16384)
            (shapeCast S16384 (extractStridedSlice S16384x1 ![0, 1] (Vw (Proc.devRef .tc main_v13_1)) slices_S16384x2_S16384x1_0_1) shapeCasts_S16384x1_S16384)
            (Vw (Proc.devRef .tc main_arg5)) := by
    intro Vw
    after_results
    rfl
  unfold Pipeline.afterTail₀
  show StableHlo.after hostOps1 _ (Proc.devRef .tc main_v27) = _
  rw [key]
  have e7 := Pipeline.withArrays_arr spec0 launch0.win.arr_inj c (V0 m c) (fun w => (dats m 0 c).arrAt w cfg0.N) 7
  have e4 := Pipeline.withArrays_arr spec0 launch0.win.arr_inj c (V0 m c) (fun w => (dats m 0 c).arrAt w cfg0.N) 4
  rw [show Pipeline.withArrays spec0 c (V0 m c) (fun w => (dats m 0 c).arrAt w cfg0.N) (Proc.devRef .tc main_v13_1) = (dats m 0 c).arrAt 7 cfg0.N from e7,
    show Pipeline.withArrays spec0 c (V0 m c) (fun w => (dats m 0 c).arrAt w cfg0.N) (Proc.devRef .tc main_arg5) = (dats m 0 c).arrAt 4 cfg0.N from e4]

/-- The second result is the loss of the reference's two columns, when the inputs, the mask and the
    log-probabilities are real. -/
theorem result1_eq (c : Dev nD) (hX : ∀ i, ∃ r : ℝ, X m c i = (r : EReal)) (hM : ∀ i, ∃ r : ℝ, Mk m c i = (r : EReal))
    (hL : ∀ i, ∃ r : ℝ, LT m c i = (r : EReal)) :
    Pipeline.afterTail₀ cfgs (dats m) 0 (V0 m) [hostOps1] c main_v27
      = Cert.Loss.lossOf (contribCol (X m c) (Mk m c) (LT m c) (Wy m c) (By m c))
          (klCol (X m c) (Tg m c) (Wy m c) (By m c)) (Wy m c) := by
  rw [tail_eq, final7, (dats m 0 c).arrAt_in 4 rfl, A_eq]
  have e0 : shapeCast S16384 (extractStridedSlice S16384x1 ![0, 0]
        (statsArr (X m c) (Mk m c) (Tg m c) (LT m c) (Wy m c) (By m c)) slices_S16384x2_S16384x1_0_0) shapeCasts_S16384x1_S16384
      = contribCol (X m c) (Mk m c) (LT m c) (Wy m c) (By m c) :=
    funext fun j => by
      obtain ⟨r, rfl⟩ : ∃ r : Fin 16384, j = ix1 r := ⟨j 0, eq_ix1 j⟩
      exact (Cert.Loss.col0_apply _ _ _ r).trans (stats_col0 _ _ _ _ _ _ hX hM hL r)
  have e1 : shapeCast S16384 (extractStridedSlice S16384x1 ![0, 1]
        (statsArr (X m c) (Mk m c) (Tg m c) (LT m c) (Wy m c) (By m c)) slices_S16384x2_S16384x1_0_1) shapeCasts_S16384x1_S16384
      = klCol (X m c) (Tg m c) (Wy m c) (By m c) :=
    funext fun j => by
      obtain ⟨r, rfl⟩ : ∃ r : Fin 16384, j = ix1 r := ⟨j 0, eq_ix1 j⟩
      exact (Cert.Loss.col1_apply _ _ _ r).trans (stats_col1 _ _ _ _ _ _ r)
  rw [e0, e1]

/-- The arguments as launched, typed as arrays. -/
abbrev a0 (c : Dev nD) : FVec Ideal S16384x2000 .f32 := m ((c.tc : Thread nD τ).loc main_arg0)
abbrev a1 (c : Dev nD) : FVec Ideal S16384x2000 .f32 := m ((c.tc : Thread nD τ).loc main_arg1)
abbrev a2 (c : Dev nD) : FVec Ideal S16384x10 .f32 := m ((c.tc : Thread nD τ).loc main_arg2)
abbrev a3 (c : Dev nD) : FVec Ideal S10x2000 .f32 := m ((c.tc : Thread nD τ).loc main_arg3)
abbrev a4 (c : Dev nD) : FVec Ideal S1x2000 .f32 := m ((c.tc : Thread nD τ).loc main_arg4)
abbrev a5 (c : Dev nD) : FVec Ideal S2000x10 .f32 := m ((c.tc : Thread nD τ).loc main_arg5)
abbrev a6 (c : Dev nD) : FVec Ideal S1x10 .f32 := m ((c.tc : Thread nD τ).loc main_arg6)

/-- The frame run re-posted: the two results as functions of the arguments, the arguments unchanged. -/
theorem run (hX : ∀ c i, ∃ r : ℝ, a0 m c i = (r : EReal)) (hM : ∀ c i, ∃ r : ℝ, a1 m c i = (r : EReal))
    (hL : ∀ c i, ∃ r : ℝ, Cert.RefRows.logProbT (a3 m c) (a4 m c) i = (r : EReal)) :
    θ_run defs (onTc (τ := τ) (main (F := Ideal))) ⟨m, fun _ => 0, ρ⟩ fun r => ∀ c : Dev nD,
      r.2.mem ((c.tc : Thread nD τ).loc main_v13_0) = probsArr (a0 m c) (a5 m c) (a6 m c)
      ∧ r.2.mem ((c.tc : Thread nD τ).loc main_v27)
          = Cert.Loss.lossOf (contribCol (a0 m c) (a1 m c) (Cert.RefRows.logProbT (a3 m c) (a4 m c)) (a5 m c) (a6 m c))
              (klCol (a0 m c) (a2 m c) (a5 m c) (a6 m c)) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have eX : ∀ c, X m c = a0 m c := fun c => V_main_arg0 m c
  have eM : ∀ c, Mk m c = a1 m c := fun c => V_main_arg1 m c
  have eT : ∀ c, Tg m c = a2 m c := fun c => V_main_arg2 m c
  have eW : ∀ c, Wy m c = a5 m c := fun c => V_main_arg5 m c
  have eB : ∀ c, By m c = a6 m c := fun c => V_main_arg6 m c
  have eL : ∀ c, LT m c = Cert.RefRows.logProbT (a3 m c) (a4 m c) := fun c => LT_eq m c
  refine (θ_run defs _ _).mono (fun r h c => ⟨?_, ?_,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c)))⟩)
    (run_main m ρ)
  · refine ((h c).1 6).trans ((final6 m c).trans ?_)
    rw [eX, eW, eB]
  · refine ((h c).2 main_v27 (Pipeline.mem_restRefs_of main_v27 (by decide) (by decide))).trans ?_
    refine (result1_eq m c (fun i => by rw [eX]; exact hX c i) (fun i => by rw [eM]; exact hM c i)
      (fun i => by rw [eL]; exact hL c i)).trans ?_
    rw [eX, eM, eT, eW, eB, eL]

end Cert.KernelIdeal.Hand

end
-- ==== Proof.Finite.lean ====
/-
  What the precondition gives: the entries of the inputs, the mask and the two decoder parameters are real numbers.

  The precondition is a conjunction of `jnp.all (|x| < +inf)` over the seven arguments.  An extended real whose
  absolute value `max x (-x)` lies strictly below `⊤` is neither `⊤` nor `⊥`, so it is a real.  Only four of the seven
  conjuncts are used: the law that joins the two programs moves a sign across the contraction of the masked inputs
  with the decoder's log-probabilities, and needs exactly those to be real.
-/
import proofs.«149139_j19679540150905_1_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-- An extended real whose absolute value is below `+inf` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

instance : Subsingleton S_.Idx := ⟨fun a b => funext fun d => d.elim0⟩

variable [Cert.Pre_finite_inputs.Facts]

/-- From the precondition: the inputs, the mask, the decoder's weights and its bias have real entries. -/
theorem reals_of_pre (X M : FVec Ideal S16384x2000 .f32) (T : FVec Ideal S16384x10 .f32) (Wr : FVec Ideal S10x2000 .f32)
    (Br : FVec Ideal S1x2000 .f32) (W : FVec Ideal S2000x10 .f32) (B : FVec Ideal S1x10 .f32)
    (h : fn (F := Ideal) X M T Wr Br W B = fun _ => 1#1) :
    (∀ i, ∃ r : ℝ, X i = (r : EReal)) ∧ (∀ i, ∃ r : ℝ, M i = (r : EReal))
      ∧ (∀ i, ∃ r : ℝ, Wr i = (r : EReal)) ∧ (∀ i, ∃ r : ℝ, Br i = (r : EReal)) := by
  have h0 := congrFun h ValueIdx.ix0
  dsimp only [fn] at h0
  dsimp only [fn_part1] at h0
  obtain ⟨h28, -⟩ := IntOp.andi_eq_one.1 h0
  obtain ⟨h23, -⟩ := IntOp.andi_eq_one.1 h28
  obtain ⟨h18, h22⟩ := IntOp.andi_eq_one.1 h23
  obtain ⟨h13, h17⟩ := IntOp.andi_eq_one.1 h18
  obtain ⟨h8, -⟩ := IntOp.andi_eq_one.1 h13
  obtain ⟨h3, h7⟩ := IntOp.andi_eq_one.1 h8
  exact ⟨fun i => real_of_abs_lt_inf (X i) (Host.reduce_andi_all _ _ _ _ _ h3 i),
    fun i => real_of_abs_lt_inf (M i) (Host.reduce_andi_all _ _ _ _ _ h7 i),
    fun i => real_of_abs_lt_inf (Wr i) (Host.reduce_andi_all _ _ _ _ _ h17 i),
    fun i => real_of_abs_lt_inf (Br i) (Host.reduce_andi_all _ _ _ _ _ h22 i)⟩

end Cert.Finite

end
-- ==== Proof.LogProbReal.lean ====
/-
  The decoder's log-probabilities are real numbers when the decoder's parameters are.

  Stage by stage, uniformly in the index: the exponential of a real sum is a positive real; a group's total, ten of
  those added to zero, is a positive real; a quotient of positive reals is a positive real; adding the positive
  word `1e-10` keeps it positive; and the logarithm of a positive real is a real.  The reshapes, broadcasts and the
  transpose in between only re-index, so the statement passes through them at every index.
-/
import proofs.«149139_j19679540150905_1_alg».proof.Proof.Gen.ReferenceIdeal.Read
import proofs.«149139_j19679540150905_1_alg».proof.Proof.Rows
import proofs.«149139_j19679540150905_1_alg».proof.Proof.Consts

noncomputable section

namespace Cert.LogProbReal

open Idealize.ShloMosaic Cert.ReferenceIdeal Cert.ReferenceIdeal.Gen Cert.ReferenceIdeal.Read
open scoped BigOperators

/-- An extended real that is a positive real number. -/
def PosReal (x : EReal) : Prop := ∃ r : ℝ, 0 < r ∧ x = (r : EReal)

theorem posReal_exp {x : EReal} (h : ∃ r : ℝ, x = (r : EReal)) : PosReal (Ideal.exp x) := by
  obtain ⟨r, rfl⟩ := h
  exact ⟨Real.exp r, Real.exp_pos r, rfl⟩

theorem posReal_add {x y : EReal} (hx : PosReal x) (hy : PosReal y) : PosReal (x + y) := by
  obtain ⟨a, ha, rfl⟩ := hx
  obtain ⟨b, hb, rfl⟩ := hy
  exact ⟨a + b, add_pos ha hb, (EReal.coe_add a b).symm⟩

theorem posReal_sum (f : Fin 10 → EReal) (h : ∀ k, PosReal (f k)) : PosReal (∑ k : Fin 10, f k) := by
  choose g hg hf using h
  refine ⟨∑ k : Fin 10, g k, Finset.sum_pos (fun k _ => hg k) ⟨0, Finset.mem_univ _⟩, ?_⟩
  rw [Cert.Rows.coe_sum]
  exact Finset.sum_congr rfl fun k _ => hf k

theorem posReal_div {x y : EReal} (hx : PosReal x) (hy : PosReal y) : PosReal (Ideal.div x y) := by
  obtain ⟨a, ha, rfl⟩ := hx
  obtain ⟨b, hb, rfl⟩ := hy
  refine ⟨a * (1 / b), mul_pos ha (one_div_pos.mpr hb), ?_⟩
  rw [Ideal.div_coe (ne_of_gt hb), ← EReal.coe_mul]

theorem real_log {x : EReal} (hx : PosReal x) : ∃ r : ℝ, Ideal.log x = (r : EReal) := by
  obtain ⟨a, ha, rfl⟩ := hx
  exact ⟨Real.log a, by rw [Ideal.log_coe, if_neg (not_le.mpr ha)]⟩

abbrev Dec := (⟨S10x2000, .f32⟩ : BufTy).Contents (Elt Ideal)
abbrev DecB := (⟨S1x2000, .f32⟩ : BufTy).Contents (Elt Ideal)

variable (Wr : Dec) (Br : DecB) (hW : ∀ i, ∃ r : ℝ, Wr i = (r : EReal)) (hB : ∀ i, ∃ r : ℝ, Br i = (r : EReal))

include hW hB

theorem pos_v2 (j : S10x2000.Idx) : PosReal (val_main_v2 (F := Ideal) Wr Br j) := by
  rw [val_main_v2_apply, val_main_v1_apply, val_main_v0_apply]
  obtain ⟨a, ha⟩ := hW j
  obtain ⟨b, hb⟩ := hB (idx_main_v0 j)
  exact posReal_exp ⟨a + b, by rw [ha, hb]; exact (EReal.coe_add a b).symm⟩

theorem pos_v3 (k : S10x200x10.Idx) : PosReal (val_main_v3 (F := Ideal) Wr Br k) := by
  rw [val_main_v3_apply]; exact pos_v2 Wr Br hW hB _

theorem pos_v4 (l : S10x200.Idx) : PosReal (val_main_v4 (F := Ideal) Wr Br l) := by
  rw [val_main_v4_apply, val_main_cst_apply, Ideal.ofBits_def, Ideal.ofBits_zero_f32, zero_add]
  exact posReal_sum _ fun k => pos_v3 Wr Br hW hB _

theorem pos_v7 (k : S10x200x10.Idx) : PosReal (val_main_v7 (F := Ideal) Wr Br k) := by
  rw [val_main_v7_apply, val_main_v6_apply, val_main_v5_apply, Ideal.hostDivf_def]
  exact posReal_div (pos_v3 Wr Br hW hB _) (pos_v4 Wr Br hW hB _)

theorem pos_v10 (j : S10x2000.Idx) : PosReal (val_main_v10 (F := Ideal) Wr Br j) := by
  rw [val_main_v10_apply, val_main_v9_apply, val_main_cst_0_apply, val_main_v8_apply, Ideal.ofBits_def, Ideal.addf_def]
  obtain ⟨e, he, hb⟩ := Cert.Consts.ofBits_eps
  exact posReal_add ⟨e, he, hb⟩ (pos_v7 Wr Br hW hB _)

/-- Every entry of the transposed log-probabilities is a real number. -/
theorem real_logProbT (i : S2000x10.Idx) : ∃ r : ℝ, val_main_v14 (F := Ideal) Wr Br i = (r : EReal) := by
  rw [val_main_v14_apply, val_main_v11_apply, Ideal.hostUnary_log_def]
  exact real_log (pos_v10 Wr Br hW hB _)

end Cert.LogProbReal

end
-- ==== Proof.lean ====
/-
  A masked-reconstruction classifier loss: a Pallas kernel over 16 blocks of 1024 batch rows against its jnp reference.

  Both programs first form the decoder's log-probabilities `LT[k, q] = log (ε + softmax over each group of ten)` on the
  host, by the same lines.  For each batch row `r` they compute the softmax `y` of the row's logits `x · W + b`
  (the first result), the row's reconstruction term `Σ_q y q · R q`, and the row's KL term
  `Σ_q y q · (log (ε + y q) - log (ε + t q))`; the loss (the second result) is the mean of the first terms, plus
  `1e-4` times the mean of the second, plus `2.5e-7` times the sum of the absolute classifier weights.

  The programs differ in one place: the kernel's `R q = (Σ_k (x k · mask k) · LT k q) · c` with `c` the named constant
  `-1/2000`, the reference's `R q = (Σ_k (-(x k · mask k)) · LT k q) / 2000`.  On the extended reals a sign does not
  move out of a sum that meets both infinities, so the equality needs the summands real: `x` and `mask` are real by
  the precondition, and `LT` is real because the decoder's parameters are (an exponential of a real is a positive
  real, ten of them sum to a positive real, their quotient plus the positive `ε` is positive, and its logarithm is
  real).  Everything else is the same operation on both sides: a lane reduction in the kernel against the host's
  reduction over the same axis, a matrix product into a zero accumulator against `dot_general`, a division and the
  transcendental functions read as the same functions of extended reals.

  The kernel's side: at grid point `t` the body stores block `t` of the classifier's output array and of a two-column
  statistics array (each row's two terms); the blocks tile the arrays; the host lines after the region slice the two
  columns and form the loss.  The reference's side is its generated run, read one operation at a time.
-/
import proofs.«149139_j19679540150905_1_alg».proof.Defs
import proofs.«149139_j19679540150905_1_alg».proof.Proof.Gen.Kernel
import proofs.«149139_j19679540150905_1_alg».proof.Proof.Gen.Kernel.Skeleton
import proofs.«149139_j19679540150905_1_alg».proof.Proof.Gen.Kernel.Launch
import proofs.«149139_j19679540150905_1_alg».proof.Proof.Gen.Kernel.Points
import proofs.«149139_j19679540150905_1_alg».proof.Proof.Gen.Kernel.Frame
import proofs.«149139_j19679540150905_1_alg».proof.Proof.Gen.KernelIdeal
import proofs.«149139_j19679540150905_1_alg».proof.Proof.Gen.KernelIdeal.Skeleton
import proofs.«149139_j19679540150905_1_alg».proof.Proof.Gen.KernelIdeal.Launch
import proofs.«149139_j19679540150905_1_alg».proof.Proof.Gen.KernelIdeal.Points
import proofs.«149139_j19679540150905_1_alg».proof.Proof.Gen.KernelIdeal.Frame
import proofs.«149139_j19679540150905_1_alg».proof.Proof.Gen.ReferenceIdeal
import proofs.«149139_j19679540150905_1_alg».proof.Proof.Gen.Pre_finite_inputs
import proofs.«149139_j19679540150905_1_alg».proof.Proof.Gen.ReferenceIdeal.Run
import proofs.«149139_j19679540150905_1_alg».proof.Proof.Gen.ReferenceIdeal.Read
import Idealize.ShloMosaic.Adequacy
import Idealize.ShloMosaic.Init

import proofs.«149139_j19679540150905_1_alg».proof.Proof.KernelRun
import proofs.«149139_j19679540150905_1_alg».proof.Proof.RefRows
import proofs.«149139_j19679540150905_1_alg».proof.Proof.Finite
import proofs.«149139_j19679540150905_1_alg».proof.Proof.LogProbReal
import Idealize.ShloMosaic.PureOps.IdealRules

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The kernel's scale `-0.0005` is a named constant, and the name denotes `-1/2000`. -/
theorem preserves : Cert.preserves_Kernel_KernelIdeal :=
  IdealRules.named_const.statement Cert.KernelIdeal.κ "neg_inv_2000" .f32 0xBA03126F#32 ((-1 / 2000 : ℝ) : EReal) rfl

/-- From agreeing arguments both idealized programs end with the classifier's output array and the same loss. -/
theorem algebraic : Cert.algebraic_KernelIdeal_ReferenceIdeal := by
  intro m ρ m' ρ' hpre hagree
  have hfin := fun c => Cert.Finite.reals_of_pre _ _ _ _ _ _ _ (hpre c)
  refine ⟨fun c => Cert.Rows.probsArr (Cert.KernelIdeal.Hand.a0 m c) (Cert.KernelIdeal.Hand.a5 m c) (Cert.KernelIdeal.Hand.a6 m c),
    fun c => Cert.Loss.lossOf
      (Cert.Rows.contribCol (Cert.KernelIdeal.Hand.a0 m c) (Cert.KernelIdeal.Hand.a1 m c)
        (Cert.RefRows.logProbT (Cert.KernelIdeal.Hand.a3 m c) (Cert.KernelIdeal.Hand.a4 m c))
        (Cert.KernelIdeal.Hand.a5 m c) (Cert.KernelIdeal.Hand.a6 m c))
      (Cert.Rows.klCol (Cert.KernelIdeal.Hand.a0 m c) (Cert.KernelIdeal.Hand.a2 m c) (Cert.KernelIdeal.Hand.a5 m c)
        (Cert.KernelIdeal.Hand.a6 m c))
      (Cert.KernelIdeal.Hand.a5 m c),
    Cert.KernelIdeal.Hand.run m ρ (fun c => (hfin c).1) (fun c => (hfin c).2.1)
      (fun c => Cert.LogProbReal.real_logProbT _ _ (hfin c).2.2.1 (hfin c).2.2.2), ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v31_eq _ _ _).trans ((Cert.RefRows.result0_eq _ _ _).trans ?_))
    rw [(hagree c).1, (hagree c).2.2.2.2.2.1, (hagree c).2.2.2.2.2.2]
  · refine (h c).2.1.trans ((Cert.ReferenceIdeal.Read.val_main_v52_eq m' c).trans
      ((Cert.RefRows.result1_eq _ _ _ _ _ _ _).trans ?_))
    rw [(hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
